-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v11)) (v2 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_v17) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x512 : Shape := ⟨3, ![64, 512, 512]⟩
abbrev S_ : Shape := ⟨0, ![]⟩

class Facts : Prop where
  bcast_S_S64x512x512 : S_.BroadcastsInDim S64x512x512 (![] : Fin 0 → Fin S64x512x512.rank)
  reducesTo_S64x512x512_S_d0_1_2 : S64x512x512.ReducesTo [0, 1, 2] S_
  h_S_ : 0 < S_.numel

variable [Facts]

def fn_part2 {F : FTy → Type} [FloatOps F] (main_v28 : IVec S64x512x512 1) (main_v32 : IVec S_ 1) (main_v33 : FVec F S64x512x512 .f32) (main_v34 : FVec F S64x512x512 .f32) : IVec S_ 1 :=
  let main_v35 : IVec S64x512x512 1 := cmpf .olt main_v33 main_v34
  let main_c_11 : IVec S_ 1 := constantI S_ 1 1#1
  let main_v36 : IVec S_ 1 := (fun x v => Host.reduce IntOp.andi x v reducesTo_S64x512x512_S_d0_1_2 h_S_) main_v35 main_c_11
  let main_v37 : IVec S_ 1 := andi main_v32 main_v36
  let main_c_12 : IVec S_ 1 := constantI S_ 1 1#1
  let main_v38 : IVec S_ 1 := (fun x v => Host.reduce IntOp.andi x v reducesTo_S64x512x512_S_d0_1_2 h_S_) main_v28 main_c_12
  let main_v39 : IVec S_ 1 := andi main_v37 main_v38
  main_v39

def fn_part1 {F : FTy → Type} [FloatOps F] (main_arg0 : FVec F S64x512x512 .f32) (main_arg1 : FVec F S64x512x512 .f32) (main_v16 : IVec S64x512x512 1) (main_cst_5 : FVec F S_ .f32) : IVec S_ 1 :=
  let main_v17 : FVec F S64x512x512 .f32 := broadcastInDim S64x512x512 ![] bcast_S_S64x512x512 main_cst_5
  let main_v18 : IVec S64x512x512 1 := cmpf .oeq main_arg1 main_v17
  let main_v19 : IVec S64x512x512 1 := ori main_v16 main_v18
  let main_cst_6 : FVec F S_ .f32 := constant S_ .f32 0x40E00000#32
  let main_v20 : FVec F S64x512x512 .f32 := broadcastInDim S64x512x512 ![] bcast_S_S64x512x512 main_cst_6
  let main_v21 : IVec S64x512x512 1 := cmpf .oeq main_arg1 main_v20
  let main_v22 : IVec S64x512x512 1 := ori main_v19 main_v21
  let main_cst_7 : FVec F S_ .f32 := constant S_ .f32 0x41000000#32
  let main_v23 : FVec F S64x512x512 .f32 := broadcastInDim S64x512x512 ![] bcast_S_S64x512x512 main_cst_7
  let main_v24 : IVec S64x512x512 1 := cmpf .oeq main_arg1 main_v23
  let main_v25 : IVec S64x512x512 1 := ori main_v22 main_v24
  let main_cst_8 : FVec F S_ .f32 := constant S_ .f32 0x41100000#32
  let main_v26 : FVec F S64x512x512 .f32 := broadcastInDim S64x512x512 ![] bcast_S_S64x512x512 main_cst_8
  let main_v27 : IVec S64x512x512 1 := cmpf .oeq main_arg1 main_v26
  let main_v28 : IVec S64x512x512 1 := ori main_v25 main_v27
  let main_v29 : FVec F S64x512x512 .f32 := Host.absf main_arg0
  let main_cst_9 : FVec F S_ .f32 := constant S_ .f32 0x7F800000#32
  let main_v30 : FVec F S64x512x512 .f32 := broadcastInDim S64x512x512 ![] bcast_S_S64x512x512 main_cst_9
  let main_v31 : IVec S64x512x512 1 := cmpf .olt main_v29 main_v30
  let main_c : IVec S_ 1 := constantI S_ 1 1#1
  let main_v32 : IVec S_ 1 := (fun x v => Host.reduce IntOp.andi x v reducesTo_S64x512x512_S_d0_1_2 h_S_) main_v31 main_c
  let main_v33 : FVec F S64x512x512 .f32 := Host.absf main_arg1
  let main_cst_10 : FVec F S_ .f32 := constant S_ .f32 0x7F800000#32
  let main_v34 : FVec F S64x512x512 .f32 := broadcastInDim S64x512x512 ![] bcast_S_S64x512x512 main_cst_10
  fn_part2 (F := F) main_v28 main_v32 main_v33 main_v34

def fn {F : FTy → Type} [FloatOps F] (main_arg0 : FVec F S64x512x512 .f32) (main_arg1 : FVec F S64x512x512 .f32) (main_arg2 : IVec S64x512x512 32) : IVec S_ 1 :=
  let main_cst : FVec F S_ .f32 := constant S_ .f32 0x00000000#32
  let main_v0 : FVec F S64x512x512 .f32 := broadcastInDim S64x512x512 ![] bcast_S_S64x512x512 main_cst
  let main_v1 : IVec S64x512x512 1 := cmpf .oeq main_arg1 main_v0
  let main_cst_0 : FVec F S_ .f32 := constant S_ .f32 0x3F800000#32
  let main_v2 : FVec F S64x512x512 .f32 := broadcastInDim S64x512x512 ![] bcast_S_S64x512x512 main_cst_0
  let main_v3 : IVec S64x512x512 1 := cmpf .oeq main_arg1 main_v2
  let main_v4 : IVec S64x512x512 1 := ori main_v1 main_v3
  let main_cst_1 : FVec F S_ .f32 := constant S_ .f32 0x40000000#32
  let main_v5 : FVec F S64x512x512 .f32 := broadcastInDim S64x512x512 ![] bcast_S_S64x512x512 main_cst_1
  let main_v6 : IVec S64x512x512 1 := cmpf .oeq main_arg1 main_v5
  let main_v7 : IVec S64x512x512 1 := ori main_v4 main_v6
  let main_cst_2 : FVec F S_ .f32 := constant S_ .f32 0x40400000#32
  let main_v8 : FVec F S64x512x512 .f32 := broadcastInDim S64x512x512 ![] bcast_S_S64x512x512 main_cst_2
  let main_v9 : IVec S64x512x512 1 := cmpf .oeq main_arg1 main_v8
  let main_v10 : IVec S64x512x512 1 := ori main_v7 main_v9
  let main_cst_3 : FVec F S_ .f32 := constant S_ .f32 0x40800000#32
  let main_v11 : FVec F S64x512x512 .f32 := broadcastInDim S64x512x512 ![] bcast_S_S64x512x512 main_cst_3
  let main_v12 : IVec S64x512x512 1 := cmpf .oeq main_arg1 main_v11
  let main_v13 : IVec S64x512x512 1 := ori main_v10 main_v12
  let main_cst_4 : FVec F S_ .f32 := constant S_ .f32 0x40A00000#32
  let main_v14 : FVec F S64x512x512 .f32 := broadcastInDim S64x512x512 ![] bcast_S_S64x512x512 main_cst_4
  let main_v15 : IVec S64x512x512 1 := cmpf .oeq main_arg1 main_v14
  let main_v16 : IVec S64x512x512 1 := ori main_v13 main_v15
  let main_cst_5 : FVec F S_ .f32 := constant S_ .f32 0x40C00000#32
  fn_part1 (F := F) main_arg0 main_arg1 main_v16 main_cst_5
-- ==== Kernel.lean ====
abbrev S64x512x512 : Shape := ⟨3, ![64, 512, 512]⟩
abbrev S2x2x128 : Shape := ⟨3, ![2, 2, 128]⟩
abbrev S1x512x512 : Shape := ⟨3, ![1, 512, 512]⟩
abbrev S1x2x128 : Shape := ⟨3, ![1, 2, 128]⟩
abbrev S512x512 : Shape := ⟨2, ![512, 512]⟩
abbrev S2x128 : Shape := ⟨2, ![2, 128]⟩
abbrev S1 : Shape := ⟨1, ![1]⟩
abbrev S1x1x1 : Shape := ⟨3, ![1, 1, 1]⟩
abbrev S_ : Shape := ⟨0, ![]⟩
abbrev S1x10 : Shape := ⟨2, ![1, 10]⟩
abbrev S10 : Shape := ⟨1, ![10]⟩

abbrev nBuf : Space → Nat
  | .hbm => 26
  | .vmem => 8
  | .smem => 0
  | _ => 0

abbrev bufTy : (tb : Table) → Fin (tcTables nBuf tb) → BufTy
  | .hbm, ⟨0, _⟩ => ⟨S64x512x512, .f32⟩
  | .hbm, ⟨1, _⟩ => ⟨S64x512x512, .f32⟩
  | .hbm, ⟨2, _⟩ => ⟨S64x512x512, .i32⟩
  | .hbm, ⟨3, _⟩ => ⟨S2x2x128, .f32⟩
  | .hbm, ⟨4, _⟩ => ⟨S_, .f32⟩
  | .hbm, ⟨5, _⟩ => ⟨S2x128, .f32⟩
  | .hbm, ⟨6, _⟩ => ⟨S1x10, .f32⟩
  | .hbm, ⟨7, _⟩ => ⟨S10, .f32⟩
  | .hbm, ⟨8, _⟩ => ⟨S1x10, .f32⟩
  | .hbm, ⟨9, _⟩ => ⟨S10, .f32⟩
  | .hbm, ⟨10, _⟩ => ⟨S_, .f32⟩
  | .hbm, ⟨11, _⟩ => ⟨S10, .f32⟩
  | .hbm, ⟨12, _⟩ => ⟨S10, .i1⟩
  | .hbm, ⟨13, _⟩ => ⟨S_, .f32⟩
  | .hbm, ⟨14, _⟩ => ⟨S10, .f32⟩
  | .hbm, ⟨15, _⟩ => ⟨S10, .f32⟩
  | .hbm, ⟨16, _⟩ => ⟨S10, .f32⟩
  | .hbm, ⟨17, _⟩ => ⟨S_, .f32⟩
  | .hbm, ⟨18, _⟩ => ⟨S_, .f32⟩
  | .hbm, ⟨19, _⟩ => ⟨S10, .f32⟩
  | .hbm, ⟨20, _⟩ => ⟨S10, .f32⟩
  | .hbm, ⟨21, _⟩ => ⟨S_, .f32⟩
  | .hbm, ⟨22, _⟩ => ⟨S10, .f32⟩
  | .hbm, ⟨23, _⟩ => ⟨S10, .f32⟩
  | .hbm, ⟨24, _⟩ => ⟨S_, .f32⟩
  | .hbm, ⟨25, _⟩ => ⟨S_, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .i32⟩
  | .local _ .vmem, ⟨5, _⟩ => ⟨S1x512x512, .i32⟩
  | .local _ .vmem, ⟨6, _⟩ => ⟨S1x2x128, .f32⟩
  | .local _ .vmem, ⟨7, _⟩ => ⟨S1x2x128, .f32⟩
  | _, _ => ⟨S64x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  iota_S2x128_d1_w32 : S2x128.Iotas .tc 32 [1]
  iota_S2x128_d0_w32 : S2x128.Iotas .tc 32 [0]
  shapeCasts_S512x512_S1x512x512 : S512x512.ShapeCasts S1x512x512
  reduces_S1x512x512_S1 : S1x512x512.Reduces [1, 2] S1
  shapeCasts_S1_S1x1x1 : S1.ShapeCasts S1x1x1
  inpos_S1x1x1_p0_0_0 : ∀ a, (![0, 0, 0] : Fin 3 → Nat) a < S1x1x1.size a
  natLt_1_32 : 1 < 32
  inb_S1x2x128_S1x2x128_0_0_0 : ∀ a, (![0, 0, 0] : Fin 3 → Nat) a + S1x2x128.size a ≤ S1x2x128.size a
  h_S1x2x128 : 0 < S1x2x128.numel
  shapeCasts_S1x2x128_S2x128 : S1x2x128.ShapeCasts S2x128
  shapeCasts_S2x128_S1x2x128 : S2x128.ShapeCasts S1x2x128
  reducesTo_S2x2x128_S2x128_d0 : S2x2x128.ReducesTo [0] S2x128
  h_S_ : 0 < S_.numel
  slices_S2x128_S1x10_0_0 : S2x128.Slices ![0, 0] S1x10
  shapeCasts_S1x10_S10 : S1x10.ShapeCasts S10
  slices_S2x128_S1x10_1_0 : S2x128.Slices ![1, 0] S1x10
  bcast_S_S10 : S_.BroadcastsInDim S10 (![] : Fin 0 → Fin S10.rank)
  reducesTo_S10_S_d0 : S10.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S64x512x512.size a
  hwx0_0 : ∀ i : grid0.Coords, EltTy.bits .f32 = 32 ∨ (Rect.block (s := S64x512x512) S1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S64x512x512.size a
  hwx0_1 : ∀ i : grid0.Coords, EltTy.bits .f32 = 32 ∨ (Rect.block (s := S64x512x512) S1x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x512.size a ≤ S64x512x512.size a
  hwx0_2 : ∀ i : grid0.Coords, EltTy.bits .i32 = 32 ∨ (Rect.block (s := S64x512x512) S1x512x512.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2x128.size a ≤ S2x2x128.size a
  hwx0_3 : ∀ i : grid0.Coords, EltTy.bits .f32 = 32 ∨ (Rect.block (s := S2x2x128) S1x2x128.size (cc0_transform_3 i) (hinb0_3 i)).WholeWords (EltTy.packing .f32)

variable [Facts₀]

abbrev win0_0 : Pipeline.Window sig grid0 :=
  Pipeline.Window.ofSpec (Memref.whole main_arg0) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x2x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x512x512 : Shape := ⟨3, ![64, 512, 512]⟩
abbrev S10 : Shape := ⟨1, ![10]⟩
abbrev S_ : Shape := ⟨0, ![]⟩
abbrev S16777216 : Shape := ⟨1, ![16777216]⟩
abbrev S11 : Shape := ⟨1, ![11]⟩
abbrev S16777216x1 : Shape := ⟨2, ![16777216, 1]⟩

abbrev nBuf : Space → Nat
  | .hbm => 43
  | .vmem => 0
  | .smem => 0
  | _ => 0

abbrev bufTy : (tb : Table) → Fin (tcTables nBuf tb) → BufTy
  | .hbm, ⟨0, _⟩ => ⟨S64x512x512, .f32⟩
  | .hbm, ⟨1, _⟩ => ⟨S64x512x512, .f32⟩
  | .hbm, ⟨2, _⟩ => ⟨S64x512x512, .i32⟩
  | .hbm, ⟨3, _⟩ => ⟨S10, .f32⟩
  | .hbm, ⟨4, _⟩ => ⟨S64x512x512, .i32⟩
  | .hbm, ⟨5, _⟩ => ⟨S_, .i32⟩
  | .hbm, ⟨6, _⟩ => ⟨S64x512x512, .i32⟩
  | .hbm, ⟨7, _⟩ => ⟨S64x512x512, .i1⟩
  | .hbm, ⟨8, _⟩ => ⟨S_, .i32⟩
  | .hbm, ⟨9, _⟩ => ⟨S_, .i32⟩
  | .hbm, ⟨10, _⟩ => ⟨S64x512x512, .i32⟩
  | .hbm, ⟨11, _⟩ => ⟨S64x512x512, .i32⟩
  | .hbm, ⟨12, _⟩ => ⟨S16777216, .i32⟩
  | .hbm, ⟨13, _⟩ => ⟨S64x512x512, .f32⟩
  | .hbm, ⟨14, _⟩ => ⟨S64x512x512, .f32⟩
  | .hbm, ⟨15, _⟩ => ⟨S16777216, .f32⟩
  | .hbm, ⟨16, _⟩ => ⟨S_, .f32⟩
  | .hbm, ⟨17, _⟩ => ⟨S11, .f32⟩
  | .hbm, ⟨18, _⟩ => ⟨S16777216x1, .i32⟩
  | .hbm, ⟨19, _⟩ => ⟨S11, .f32⟩
  | .hbm, ⟨20, _⟩ => ⟨S10, .f32⟩
  | .hbm, ⟨21, _⟩ => ⟨S_, .f32⟩
  | .hbm, ⟨22, _⟩ => ⟨S64x512x512, .f32⟩
  | .hbm, ⟨23, _⟩ => ⟨S16777216, .f32⟩
  | .hbm, ⟨24, _⟩ => ⟨S_, .f32⟩
  | .hbm, ⟨25, _⟩ => ⟨S11, .f32⟩
  | .hbm, ⟨26, _⟩ => ⟨S16777216x1, .i32⟩
  | .hbm, ⟨27, _⟩ => ⟨S11, .f32⟩
  | .hbm, ⟨28, _⟩ => ⟨S10, .f32⟩
  | .hbm, ⟨29, _⟩ => ⟨S_, .f32⟩
  | .hbm, ⟨30, _⟩ => ⟨S10, .f32⟩
  | .hbm, ⟨31, _⟩ => ⟨S10, .i1⟩
  | .hbm, ⟨32, _⟩ => ⟨S_, .f32⟩
  | .hbm, ⟨33, _⟩ => ⟨S10, .f32⟩
  | .hbm, ⟨34, _⟩ => ⟨S10, .f32⟩
  | .hbm, ⟨35, _⟩ => ⟨S10, .f32⟩
  | .hbm, ⟨36, _⟩ => ⟨S_, .f32⟩
  | .hbm, ⟨37, _⟩ => ⟨S_, .f32⟩
  | .hbm, ⟨38, _⟩ => ⟨S10, .f32⟩
  | .hbm, ⟨39, _⟩ => ⟨S10, .f32⟩
  | .hbm, ⟨40, _⟩ => ⟨S10, .f32⟩
  | .hbm, ⟨41, _⟩ => ⟨S_, .f32⟩
  | .hbm, ⟨42, _⟩ => ⟨S_, .f32⟩
  | _, _ => ⟨S64x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_6 : Ref sig .tc := ⟨.hbm, 36, rfl⟩
abbrev main_call1_v0 : Ref sig .tc := ⟨.hbm, 37, rfl⟩
abbrev main_call1_v1 : Ref sig .tc := ⟨.hbm, 38, rfl⟩
abbrev main_v23 : Ref sig .tc := ⟨.hbm, 39, rfl⟩
abbrev main_v24 : Ref sig .tc := ⟨.hbm, 40, rfl⟩
abbrev main_cst_7 : Ref sig .tc := ⟨.hbm, 41, rfl⟩
abbrev main_v25 : Ref sig .tc := ⟨.hbm, 42, rfl⟩

abbrev nD : Nat := 1
abbrev τ : Topo := Topo.v7x

variable {F : FTy → Type} [FloatOps F]

class Facts₀ : Prop where
  bcast_S_S64x512x512 : S_.BroadcastsInDim S64x512x512 (![] : Fin 0 → Fin S64x512x512.rank)
  shapeCasts_S64x512x512_S16777216 : S64x512x512.ShapeCasts S16777216
  bcast_S_S11 : S_.BroadcastsInDim S11 (![] : Fin 0 → Fin S11.rank)
  bcast_S16777216_S16777216x1_0 : S16777216.BroadcastsInDim S16777216x1 (![0] : Fin 1 → Fin S16777216x1.rank)
  slices_S11_S10_0 : S11.Slices ![0] S10
  bcast_S_S10 : S_.BroadcastsInDim S10 (![] : Fin 0 → Fin S10.rank)
  reducesTo_S10_S_d0 : S10.ReducesTo [0] S_
  h_S_ : 0 < S_.numel
  scatter_S11_S16777216x1_S16777216_n_0_0_1_wf : ScatterDims.WF S11 S16777216x1 S16777216 [] [0] [0] 1

variable [Facts₀]

def scatter_S11_S16777216x1_S16777216_n_0_0_1 : ScatterDims S11 S16777216x1 S16777216 where
  updateWindowDims := []
  insertedWindowDims := [0]
  scatterDimsToOperandDims := [0]
  indexVectorDim := 1
  wf := scatter_S11_S16777216x1_S16777216_n_0_0_1_wf

class Facts : Prop extends Facts₀ where

variable [Facts]
-- ==== Proof.ClassTotals.lean ====
/-
  Per-class totals of a masked squared error: the one function both programs compute.

  Over the pixels `p` of a `64 × 512 × 512` volume take arrays `o`, `t` of extended reals and `mk` of 32-bit words.
  For each of the ten class values `v₀ = 0, v₁ = 1, …, v₉ = 9` (given by the f32 words that denote them) the class
  total is the sum of `(o p - t p)²` over the pixels with `mk p = 1` and `t p = vₖ`, and the class count is the
  number of those pixels, written as a sum of ones.  Both are finite sums in the commutative monoid of the extended
  reals (addition there is commutative and associative without any finiteness assumption), so a sum over the
  pixels may be split into blocks, or re-read through a flattening of the volume, without changing its value.

  The targets are class ids when every `t p` is one of the ten class values; then truncating `t p` to an integer
  and testing `t p` for equality with a class value select the same pixels.
-/
import Idealize.ShloMosaic.PureOps.Ideal
import Idealize.ShloMosaic.PureOps
import Idealize.ShloMosaic.Lib.StableHlo
import Idealize.ShloMosaic.Lib.ValueIdx

noncomputable section

namespace Cert.ClassTotals

open Idealize.ShloMosaic

/-- The volume's shape. -/
abbrev Vol : Shape := ⟨3, ![64, 512, 512]⟩

/-- One image of the volume, as a block of leading extent one. -/
abbrev Blk : Shape := ⟨3, ![1, 512, 512]⟩

/-- The f32 words of the floats `0.0, 1.0, …, 9.0`. -/
def classWord : Fin 10 → BitVec 32 :=
  ![0x00000000#32, 0x3F800000#32, 0x40000000#32, 0x40400000#32, 0x40800000#32,
    0x40A00000#32, 0x40C00000#32, 0x40E00000#32, 0x41000000#32, 0x41100000#32]

/-- The class values as extended reals. -/
def classVal (k : Fin 10) : EReal := Ideal.ofBits .f32 (classWord k)

open Classical in
/-- The class total: the squared error summed over the pixels the mask admits whose target is class `k`. -/
def classSum (o t : Vol.Idx → EReal) (mk : Vol.Idx → BitVec 32) (k : Fin 10) : EReal :=
  ∑ p : Vol.Idx, if mk p = 1#32 ∧ t p = classVal k then (o p - t p) * (o p - t p) else 0

open Classical in
/-- The class count: the number of pixels the mask admits whose target is class `k`, as a sum of ones. -/
def classCount (t : Vol.Idx → EReal) (mk : Vol.Idx → BitVec 32) (k : Fin 10) : EReal :=
  ∑ p : Vol.Idx, if mk p = 1#32 ∧ t p = classVal k then 1 else 0

/-- Every target is one of the ten class values. -/
def IsClassId (t : Vol.Idx → EReal) : Prop := ∀ p, ∃ k : Fin 10, t p = classVal k

/-! ## From totals and counts to the losses

The per-class loss is the class total divided by the class count where the count is positive (the divisor kept at
least one), and zero where the class is empty; the loss is the sum over the classes of a fixed weight times the
per-class loss.  Both programs end with these same operations, so they are named once, at any float instance. -/

section Tail

variable {F : FTy → Type} [FloatOps F]

/-- Ten entries. -/
abbrev Cls : Shape := ⟨1, ![10]⟩

/-- A scalar. -/
abbrev Scal : Shape := ⟨0, ![]⟩

/-- The per-class loss from the class totals and counts. -/
def lossEach (hb : Scal.BroadcastsInDim Cls (![] : Fin 0 → Fin Cls.rank)) (sums counts : FVec F Cls .f32) : FVec F Cls .f32 :=
  select (cmpf .ogt counts (broadcastInDim Cls ![] hb (constant Scal .f32 0x00000000#32)))
    (Host.divf sums (maximumf counts (broadcastInDim Cls ![] hb (constant Scal .f32 0x3F800000#32))))
    (broadcastInDim Cls ![] hb (constant Scal .f32 0x00000000#32))

/-- The weighted loss: the sum over the classes of the weight vector times the per-class loss, from zero. -/
def lossOf (hr : Cls.ReducesTo [0] Scal) (hs : 0 < Scal.numel) (weights each : FVec F Cls .f32) : FVec F Scal .f32 :=
  Host.reduceAdd (mulf weights each) (constant Scal .f32 0x00000000#32) hr hs

end Tail

end Cert.ClassTotals

end
-- ==== Proof.LibExtendedReals.lean ====
/-
  General facts about sums and accumulating scatters on the extended reals, independent of any program.

  * `sum_mul_of_nonneg` — a nonnegative FINITE factor moves across a finite sum of extended reals. (Distributivity
    fails on the extended reals at infinite or negative factors: (1 + (-1)) · ⊤ = 0 but 1 · ⊤ + (-1) · ⊤ = ⊥. For a
    factor in [0, ∞) it holds whatever the summands are.)
  * `scatterAdd_mul`, `hostScatterAdd_mul` — the accumulating scatter `x.at[idx].add(upd)` at the ideal values is,
    at each element, the start value plus the sum of the updates landing there. If every update that lands on
    element `i` is `upd' j · c` for ONE nonnegative finite `c`, and the start value at `i` is zero, the two accumulated
    values at `i` differ by the factor `c`. The hypothesis is only asked of the updates that land on `i`
    (`d.resultIdx? j idx = some i`), which is where a per-target factor is known.
  * `rsqrt_of_one_le` — the reciprocal square root of an extended real at least 1 is nonnegative and not +∞ (of +∞
    it is 0): the shape of a degree normaliser `rsqrt (max deg 1)`.
  * `ofBits_one_f32` — the single-precision word 0x3F800000 denotes 1.
-/
import Idealize.ShloMosaic.PureOps.Ideal
import Idealize.ShloMosaic.PureOps.Ideal.Laws
import Idealize.ShloMosaic.PureOps.Contract

noncomputable section

open scoped BigOperators

namespace Cert.ExtendedReals

open Idealize.ShloMosaic

/-- A nonnegative finite factor moves across a finite sum of extended reals. -/
theorem sum_mul_of_nonneg {ι : Type} (s : Finset ι) (f : ι → EReal) {c : EReal} (h0 : 0 ≤ c) (ht : c ≠ ⊤) :
    (∑ j ∈ s, f j) * c = ∑ j ∈ s, f j * c := by
  classical
  induction s using Finset.induction_on with
  | empty => simp
  | insert a s ha ih =>
    rw [Finset.sum_insert ha, Finset.sum_insert ha, EReal.right_distrib_of_nonneg_of_ne_top h0 ht, ih]

/-- If every update that lands on element `i` is `upd' j · c` for one nonnegative finite `c`, and the sum starts from
    zero at `i`, then the two accumulated values at `i` differ by the factor `c`. -/
theorem scatterAdd_mul {s si u : Shape} {w : Nat} (d : ScatterDims s si u) (Z : s.Idx → EReal) (idx : IVec si w)
    (upd upd' : u.Idx → EReal) (i : s.Idx) (c : EReal) (hZ : Z i = 0) (h0 : 0 ≤ c) (ht : c ≠ ⊤)
    (hupd : ∀ j, d.resultIdx? j idx = some i → upd j = upd' j * c) :
    Ideal.hostScatterAdd d Z idx upd i = Ideal.hostScatterAdd d Z idx upd' i * c := by
  unfold Ideal.hostScatterAdd
  show Z i + _ = (Z i + _) * c
  rw [hZ, zero_add, zero_add, sum_mul_of_nonneg _ _ h0 ht]
  exact Finset.sum_congr rfl fun j hj => hupd j (Finset.mem_filter.mp hj).2

/-- The same for the host's accumulating scatter as a printed program spells it. Apply it by `exact` to a goal
    already in this form: restating a full-size goal through the ideal definition instead is expensive. -/
theorem hostScatterAdd_mul {s si u : Shape} {w : Nat} {φ : FTy} (d : ScatterDims s si u) (Z : FVec Ideal s φ) (idx : IVec si w)
    (upd upd' : FVec Ideal u φ) (i : s.Idx) (c : EReal) (hZ : Z i = 0) (h0 : 0 ≤ c) (ht : c ≠ ⊤)
    (hupd : ∀ j, d.resultIdx? j idx = some i → upd j = upd' j * c) :
    Host.scatterAdd d Z idx upd i = Host.scatterAdd d Z idx upd' i * c :=
  scatterAdd_mul d Z idx upd upd' i c hZ h0 ht hupd

/-- The single-precision word of 1.0 denotes 1. -/
theorem ofBits_one_f32 : Ideal.ofBits .f32 0x3F800000#32 = 1 := by
  simp [Ideal.ofBits, Ideal.ieee, -EReal.coe_mul]; norm_num

/-- The reciprocal square root of an extended real at least 1 is nonnegative and not +∞. -/
theorem rsqrt_of_one_le (y : EReal) (hy : 1 ≤ y) : 0 ≤ Ideal.rsqrt y ∧ Ideal.rsqrt y ≠ ⊤ := by
  induction y using EReal.rec with
  | bot => exact absurd (le_bot_iff.mp hy) (by exact_mod_cast EReal.coe_ne_bot (1 : ℝ))
  | top => rw [Ideal.rsqrt_top]; exact ⟨le_refl _, EReal.zero_ne_top⟩
  | coe r =>
    have hr : (1 : ℝ) ≤ r := by exact_mod_cast hy
    have h0 : ¬ r < 0 := by linarith
    have h1 : ¬ r = 0 := by intro h; rw [h] at hr; norm_num at hr
    rw [Ideal.rsqrt_coe, if_neg h0, if_neg h1]
    exact ⟨by exact_mod_cast inv_nonneg.mpr (Real.sqrt_nonneg r), EReal.coe_ne_top _⟩

end Cert.ExtendedReals

end
-- ==== Proof.ClassValues.lean ====
/-
  The ten class words are the single-precision patterns of the integers 0, 1, …, 9.

  Each word has sign 0, a biased exponent E and a 23-bit fraction T, and denotes (2^23 + T) · 2^(E - 127 - 23)
  (the zero word denotes 0): e.g. 0x40A00000 has E = 129, T = 2^21, hence (2^23 + 2^21) · 2^(-21) = 5.
  Distinct integers are distinct extended reals, so the class values are pairwise different, and truncating a
  class value toward zero returns the integer itself, well inside the 32-bit signed range.
-/
import proofs.«156286_g80736795230576_feedfinal_77_2_alg».proof.Proof.ClassTotals
import proofs.«156286_g80736795230576_feedfinal_77_2_alg».proof.Proof.LibExtendedReals
import Idealize.ShloMosaic.PureOps.Ideal.Laws

noncomputable section

namespace Cert.ClassTotals

open Idealize.ShloMosaic

/-- The class value of class `k` is the integer `k`. -/
theorem classVal_eq (k : Fin 10) : classVal k = ((k.val : ℝ) : EReal) := by
  unfold classVal classWord
  fin_cases k
  · simp [Ideal.ofBits, Ideal.ieee]
  · simpa using Cert.ExtendedReals.ofBits_one_f32
  · simp [Ideal.ofBits, Ideal.ieee, -EReal.coe_mul]; norm_num
  · simp [Ideal.ofBits, Ideal.ieee, -EReal.coe_mul]; norm_num
  · simp [Ideal.ofBits, Ideal.ieee, -EReal.coe_mul]; norm_num
  · simp [Ideal.ofBits, Ideal.ieee, -EReal.coe_mul]; norm_num
  · simp [Ideal.ofBits, Ideal.ieee, -EReal.coe_mul]; norm_num
  · simp [Ideal.ofBits, Ideal.ieee, -EReal.coe_mul]; norm_num
  · simp [Ideal.ofBits, Ideal.ieee, -EReal.coe_mul]; norm_num
  · simp [Ideal.ofBits, Ideal.ieee, -EReal.coe_mul]; norm_num

/-- Distinct classes have distinct class values. -/
theorem classVal_injective : Function.Injective classVal := by
  intro a b h
  rw [classVal_eq, classVal_eq, EReal.coe_eq_coe_iff, Nat.cast_inj] at h
  exact Fin.ext h

theorem classVal_ne_of_ne {a b : Fin 10} (h : a ≠ b) : classVal a ≠ classVal b :=
  fun he => h (classVal_injective he)

theorem classVal_eq_iff {a b : Fin 10} : classVal a = classVal b ↔ a = b :=
  classVal_injective.eq_iff

/-- A class value is a finite extended real. -/
theorem classVal_ne_top (k : Fin 10) : classVal k ≠ ⊤ := by
  rw [classVal_eq]; exact EReal.coe_ne_top _

theorem classVal_ne_bot (k : Fin 10) : classVal k ≠ ⊥ := by
  rw [classVal_eq]; exact EReal.coe_ne_bot _

/-- Truncating a natural number below 2^31, read as an extended real, to a signed 32-bit integer returns it. -/
theorem fptosi_natCast (n : ℕ) (hn : n < 2 ^ 31) : Ideal.fptosi 32 ((n : ℝ) : EReal) = BitVec.ofNat 32 n := by
  unfold Ideal.fptosi
  rw [Ideal.toIntClamped_coe]
  have h0 : (0 : ℝ) ≤ (n : ℝ) := Nat.cast_nonneg n
  rw [if_pos h0, Int.floor_natCast]
  have hc : max (-((2 ^ (32 - 1) : ℕ) : ℤ)) (min (((2 ^ (32 - 1) : ℕ) : ℤ) - 1) (n : ℤ)) = (n : ℤ) := by
    norm_num
    omega
  rw [hc, BitVec.ofInt_natCast]

/-- Truncating the class value of class `k` to a signed 32-bit integer gives the word `k`. -/
theorem fptosi_classVal (k : Fin 10) : Ideal.fptosi 32 (classVal k) = BitVec.ofNat 32 k.val := by
  rw [classVal_eq]
  exact fptosi_natCast k.val (by have := k.isLt; omega)

/-- The truncated class values are pairwise different words, all different from the word 10. -/
theorem fptosi_classVal_injective {a b : Fin 10}
    (h : Ideal.fptosi 32 (classVal a) = Ideal.fptosi 32 (classVal b)) : a = b := by
  rw [fptosi_classVal, fptosi_classVal] at h
  have h' := congrArg BitVec.toNat h
  simp only [BitVec.toNat_ofNat] at h'
  have ha := a.isLt
  have hb := b.isLt
  apply Fin.ext
  omega

theorem fptosi_classVal_ne_ten (k : Fin 10) : Ideal.fptosi 32 (classVal k) ≠ 10#32 := by
  rw [fptosi_classVal]
  intro h
  have h' := congrArg BitVec.toNat h
  simp only [BitVec.toNat_ofNat] at h'
  have hk := k.isLt
  omega

theorem fptosi_classVal_eq_iff (j k : Fin 10) :
    Ideal.fptosi 32 (classVal j) = BitVec.ofNat 32 k.val ↔ j = k := by
  rw [← fptosi_classVal k]
  exact ⟨fptosi_classVal_injective, fun h => by rw [h]⟩

end Cert.ClassTotals

end
-- ==== Proof.TargetsAreClassIds.lean ====
/-
  The precondition says that every target is one of the ten class values.

  The printed precondition is the conjunction of three tests over the whole volume, each reduced by "and": every
  |o p| is below +∞, every |t p| is below +∞, and at every pixel p the disjunction of the ten equalities
  "t p = the k-th class word".  A conjunction of bits is 1 exactly when each is, a reduction by "and" that is 1 saw a
  1 at every pixel, a disjunction of bits is 1 exactly when one of them is, and an equality test of extended reals is
  1 exactly when they are equal.  So at every pixel the target equals one of the class values.
-/
import proofs.«156286_g80736795230576_feedfinal_77_2_alg».proof.Proof.ClassTotals
import proofs.«156286_g80736795230576_feedfinal_77_2_alg».proof.Pre_finite_inputs
import proofs.«156286_g80736795230576_feedfinal_77_2_alg».proof.Proof.Gen.Pre_finite_inputs
import Idealize.ShloMosaic.Lib.ReduceAll
import Idealize.ShloMosaic.Lib.ValueIdx

noncomputable section

namespace Cert.ClassTotals

open Idealize.ShloMosaic

/-- The scalar shape has one index. -/
instance subsingleton_scalar_idx : Subsingleton Cert.Pre_finite_inputs.S_.Idx :=
  ⟨fun a b => funext fun d => d.elim0⟩

/-- An equality test of two extended reals that answers 1 compared equal values. -/
theorem eq_of_cmp_oeq {x y : EReal} (h : Ideal.cmp .oeq x y = 1#1) : x = y := by
  by_contra hne
  simp [Ideal.cmp, hne] at h

/-- The equality test of the targets against a broadcast constant, read at a pixel. -/
theorem eq_of_cmpf_oeq_const (t : Vol.Idx → EReal) (w : BitVec 32)
    (hb : Cert.Pre_finite_inputs.S_.BroadcastsInDim Cert.Pre_finite_inputs.S64x512x512
      (![] : Fin 0 → Fin Cert.Pre_finite_inputs.S64x512x512.rank)) (p : Vol.Idx)
    (h : cmpf (F := Ideal) .oeq (t : FVec Ideal Cert.Pre_finite_inputs.S64x512x512 .f32)
      (broadcastInDim Cert.Pre_finite_inputs.S64x512x512 ![] hb
        (constant (F := Ideal) Cert.Pre_finite_inputs.S_ .f32 w)) p = 1#1) :
    t p = Ideal.ofBits .f32 w :=
  eq_of_cmp_oeq h

/-- Under the precondition every target is one of the ten class values. -/
theorem isClassId_of_pre (o t : Vol.Idx → EReal) (mk : Vol.Idx → BitVec 32)
    (h : Cert.Pre_finite_inputs.fn (F := Ideal) o t mk = fun _ => 1#1) : IsClassId t := by
  have h0 := congrFun h ValueIdx.ix0
  dsimp only [Cert.Pre_finite_inputs.fn, Cert.Pre_finite_inputs.fn_part1, Cert.Pre_finite_inputs.fn_part2] at h0
  obtain ⟨-, hall⟩ := IntOp.andi_eq_one.1 h0
  intro p
  have hp := Host.reduce_andi_all _ _ _ _ _ hall p
  rcases IntOp.ori_eq_one.1 hp with hp | h9
  rcases IntOp.ori_eq_one.1 hp with hp | h8
  rcases IntOp.ori_eq_one.1 hp with hp | h7
  rcases IntOp.ori_eq_one.1 hp with hp | h6
  rcases IntOp.ori_eq_one.1 hp with hp | h5
  rcases IntOp.ori_eq_one.1 hp with hp | h4
  rcases IntOp.ori_eq_one.1 hp with hp | h3
  rcases IntOp.ori_eq_one.1 hp with hp | h2
  rcases IntOp.ori_eq_one.1 hp with h0' | h1
  · exact ⟨0, eq_of_cmpf_oeq_const t _ _ p h0'⟩
  · exact ⟨1, eq_of_cmpf_oeq_const t _ _ p h1⟩
  · exact ⟨2, eq_of_cmpf_oeq_const t _ _ p h2⟩
  · exact ⟨3, eq_of_cmpf_oeq_const t _ _ p h3⟩
  · exact ⟨4, eq_of_cmpf_oeq_const t _ _ p h4⟩
  · exact ⟨5, eq_of_cmpf_oeq_const t _ _ p h5⟩
  · exact ⟨6, eq_of_cmpf_oeq_const t _ _ p h6⟩
  · exact ⟨7, eq_of_cmpf_oeq_const t _ _ p h7⟩
  · exact ⟨8, eq_of_cmpf_oeq_const t _ _ p h8⟩
  · exact ⟨9, eq_of_cmpf_oeq_const t _ _ p h9⟩

end Cert.ClassTotals

end
-- ==== Proof.BlockTotals.lean ====
/-
  What one grid point contributes to the accumulator.

  A grid point stages one image of each input: outputs `x0`, targets `x1`, mask `x2`, each a `1 × 512 × 512` block.
  Writing `t` for the target image, `sq = (x0 - t)²` for the squared error and `ad` for the pixels whose mask is one,
  the body computes for each of the ten class words `w` the masked total `∑ [ad ∧ t = w] sq` and the masked count
  `∑ [ad ∧ t = w] 1`, and places the total at lane `k` of row 0 and the count at lane `k` of row 1 of a `2 × 128`
  vector that starts at zero: each placement adds, at every position, either the value (at the one position whose
  lane and row match) or zero.  The body then adds this vector to the accumulator block.
-/
import proofs.«156286_g80736795230576_feedfinal_77_2_alg».proof.Proof.Gen.KernelIdeal.Skeleton
import Idealize.ShloMosaic.Lib.Pipeline.Value
import Idealize.ShloMosaic.Lib.ValueIdx
import Idealize.ShloMosaic.PureOps.Ideal.Laws

set_option maxRecDepth 16384

noncomputable section

namespace Cert.KernelIdeal.BlockTotals

open Idealize.ShloMosaic Idealize.ShloMosaic.ValueIdx
open Cert.KernelIdeal Cert.KernelIdeal.Gen

variable {F : FTy → Type} [FloatOps F]

/-- A staged block read as a `512 × 512` image. -/
def image (x : Vec F S1x512x512 .f32) : FVec F S512x512 .f32 :=
  shapeCast S512x512 x shapeCasts_S1x512x512_S512x512

/-- The squared error image. -/
def sqErr (x0 x1 : Vec F S1x512x512 .f32) : FVec F S512x512 .f32 :=
  mulf (subf (shapeCast S512x512 x0 shapeCasts_S1x512x512_S512x512) (image x1))
    (subf (shapeCast S512x512 x0 shapeCasts_S1x512x512_S512x512) (image x1))

/-- The pixels the mask admits: those whose mask word is one. -/
def admitted (x2 : Vec F S1x512x512 .i32) : IVec S512x512 1 :=
  cmpi .eq (shapeCast S512x512 x2 shapeCasts_S1x512x512_S512x512) (broadcast S512x512 1#32)

/-- The admitted pixels whose target is the float with word `w`. -/
def inClass (w : BitVec 32) (t : FVec F S512x512 .f32) (ad : IVec S512x512 1) : IVec S512x512 1 :=
  andi ad (cmpf .oeq t (broadcast S512x512 (Scalar.ofBits .f32 w)))

/-- The sum of all entries of an image, as the body takes it: a reduction over both image axes, read back as a scalar. -/
def total (v : FVec F S512x512 .f32) : F .f32 :=
  extractAt ![0, 0, 0]
    (shapeCast S1x1x1 (multiReduction .add [1, 2] S1 (shapeCast S1x512x512 v shapeCasts_S512x512_S1x512x512) 0x00000000#32
      reduces_S1x512x512_S1 (.inl rfl) rfl) shapeCasts_S1_S1x1x1) inpos_S1x1x1_p0_0_0

/-- The class total of one image. -/
def maskedSum (w : BitVec 32) (t sq : FVec F S512x512 .f32) (ad : IVec S512x512 1) : F .f32 :=
  total (select (inClass w t ad) sq (broadcast S512x512 (Scalar.ofBits .f32 0x00000000#32)))

/-- The class count of one image: the sum of the indicator read as a float. -/
def maskedCount (w : BitVec 32) (t : FVec F S512x512 .f32) (ad : IVec S512x512 1) : F .f32 :=
  total (sitofp .f32 (extui 32 (inClass w t ad) natLt_1_32))

/-- Add `val` at the position of lane `lane` and row `row`, zero elsewhere. -/
def putAt (acc : FVec F S2x128 .f32) (lane row : BitVec 32) (val : F .f32) : FVec F S2x128 .f32 :=
  addf acc (select (andi (cmpi .eq (iota .tc S2x128 32 [1] iota_S2x128_d1_w32) (broadcast S2x128 lane))
      (cmpi .eq (iota .tc S2x128 32 [0] iota_S2x128_d0_w32) (broadcast S2x128 row)))
    (broadcast S2x128 val) (broadcast S2x128 (Scalar.ofBits .f32 0x00000000#32)))

/-- One class: its total into row 0 and its count into row 1 of the class's lane. -/
def classStep (acc : FVec F S2x128 .f32) (lane w : BitVec 32) (t sq : FVec F S512x512 .f32) (ad : IVec S512x512 1) :
    FVec F S2x128 .f32 :=
  putAt (putAt acc lane 0#32 (maskedSum w t sq ad)) lane 1#32 (maskedCount w t ad)

/-- What one grid point adds to the accumulator: the ten classes' totals and counts, each at its lane. -/
def blockRes (x0 x1 : Vec F S1x512x512 .f32) (x2 : Vec F S1x512x512 .i32) : FVec F S2x128 .f32 :=
  classStep (classStep (classStep (classStep (classStep (classStep (classStep (classStep (classStep (classStep
    (broadcast S2x128 (Scalar.ofBits .f32 0x00000000#32))
    0#32 0x00000000#32 (image x1) (sqErr x0 x1) (admitted x2))
    1#32 0x3F800000#32 (image x1) (sqErr x0 x1) (admitted x2))
    2#32 0x40000000#32 (image x1) (sqErr x0 x1) (admitted x2))
    3#32 0x40400000#32 (image x1) (sqErr x0 x1) (admitted x2))
    4#32 0x40800000#32 (image x1) (sqErr x0 x1) (admitted x2))
    5#32 0x40A00000#32 (image x1) (sqErr x0 x1) (admitted x2))
    6#32 0x40C00000#32 (image x1) (sqErr x0 x1) (admitted x2))
    7#32 0x40E00000#32 (image x1) (sqErr x0 x1) (admitted x2))
    8#32 0x41000000#32 (image x1) (sqErr x0 x1) (admitted x2))
    9#32 0x41100000#32 (image x1) (sqErr x0 x1) (admitted x2)

/-- The accumulator block after a point: the block before, plus the point's contribution (both read as `2 × 128`). -/
def accumulate (xo : Vec F S1x2x128 .f32) (x0 x1 : Vec F S1x512x512 .f32) (x2 : Vec F S1x512x512 .i32) : Vec F S1x2x128 .f32 :=
  shapeCast S1x2x128 (addf (shapeCast S2x128 xo shapeCasts_S1x2x128_S2x128) (blockRes x0 x1 x2)) shapeCasts_S2x128_S1x2x128

/-- The body's final store, over the values its loads read, is that accumulation. -/
theorem store_eq (xo : Vec F S1x2x128 .f32) (x0 x1 : Vec F S1x512x512 .f32) (x2 : Vec F S1x512x512 .i32) :
    k0_pay2 (k0_pay34 (k0_pay3 x1) (k0_pay5 x2)) (k0_pay35 (iota Kind.tc S2x128 32 [1] iota_S2x128_d1_w32))
      (k0_pay36 (k0_pay3 x1) (k0_pay4 x0 x1) (k0_pay5 x2) (iota Kind.tc S2x128 32 [1] iota_S2x128_d1_w32)
        (iota Kind.tc S2x128 32 [0] iota_S2x128_d0_w32)
        (k0_pay29 (k0_pay3 x1) (k0_pay4 x0 x1) (k0_pay5 x2) (iota Kind.tc S2x128 32 [1] iota_S2x128_d1_w32)
          (iota Kind.tc S2x128 32 [0] iota_S2x128_d0_w32) (k0_pay25 (k0_pay3 x1) (k0_pay5 x2))
          (k0_pay26 (iota Kind.tc S2x128 32 [1] iota_S2x128_d1_w32))
          (k0_pay27 (k0_pay3 x1) (k0_pay4 x0 x1) (k0_pay5 x2) (iota Kind.tc S2x128 32 [1] iota_S2x128_d1_w32)
            (iota Kind.tc S2x128 32 [0] iota_S2x128_d0_w32)
            (k0_pay20 (k0_pay3 x1) (k0_pay4 x0 x1) (k0_pay5 x2) (iota Kind.tc S2x128 32 [1] iota_S2x128_d1_w32)
              (iota Kind.tc S2x128 32 [0] iota_S2x128_d0_w32) (k0_pay16 (k0_pay3 x1) (k0_pay5 x2))
              (k0_pay17 (iota Kind.tc S2x128 32 [1] iota_S2x128_d1_w32))
              (k0_pay18 (k0_pay3 x1) (k0_pay4 x0 x1) (k0_pay5 x2) (iota Kind.tc S2x128 32 [1] iota_S2x128_d1_w32)
                (iota Kind.tc S2x128 32 [0] iota_S2x128_d0_w32)
                (k0_pay11 (k0_pay3 x1) (k0_pay4 x0 x1) (k0_pay5 x2) (iota Kind.tc S2x128 32 [1] iota_S2x128_d1_w32)
                  (iota Kind.tc S2x128 32 [0] iota_S2x128_d0_w32) (k0_pay7 x1 x2) k0_pay8 (k0_pay9 x0 x1 x2) k0_pay10)
                (k0_pay13 (k0_pay3 x1) (k0_pay4 x0 x1) (k0_pay5 x2)) (k0_pay14 (k0_pay3 x1) (k0_pay5 x2)))
              (k0_pay19 (iota Kind.tc S2x128 32 [0] iota_S2x128_d0_w32)))
            (k0_pay22 (k0_pay3 x1) (k0_pay4 x0 x1) (k0_pay5 x2)) (k0_pay23 (k0_pay3 x1) (k0_pay5 x2)))
          (k0_pay28 (iota Kind.tc S2x128 32 [0] iota_S2x128_d0_w32)))
        (k0_pay31 (k0_pay3 x1) (k0_pay4 x0 x1) (k0_pay5 x2)) (k0_pay32 (k0_pay3 x1) (k0_pay5 x2)))
      (k0_pay37 (iota Kind.tc S2x128 32 [0] iota_S2x128_d0_w32)) xo
    = accumulate xo x0 x1 x2 := rfl

end Cert.KernelIdeal.BlockTotals

end
-- ==== Proof.AccumulatorCases.lean ====
/-
  What each control case of the body leaves in the accumulator block.

  The body has two cases, chosen by the position `j` of the grid point inside its run of 32.  At `j ≠ 0` it loads
  the accumulator block, adds the point's contribution and stores the sum back: one store that covers the block.  At
  `j = 0` it first stores the zero block, and the load that follows reads that zero back, so the block ends at
  zero plus the point's contribution.  Either way the block after the point is an accumulation onto what the load
  read.
-/
import proofs.«156286_g80736795230576_feedfinal_77_2_alg».proof.Proof.BlockTotals
import proofs.«156286_g80736795230576_feedfinal_77_2_alg».proof.Proof.Gen.KernelIdeal.Frame
import Idealize.ShloMosaic.Lib.Pipeline.Value
import Idealize.ShloMosaic.Lib.Tactic

set_option maxRecDepth 16384

noncomputable section

namespace Cert.KernelIdeal.Accumulator

open Idealize.ShloMosaic Idealize.ShloMosaic.TcCoe Idealize.SL.Sem
open Cert.KernelIdeal Cert.KernelIdeal.Gen Cert.KernelIdeal.BlockTotals

variable {F : FTy → Type} [FloatOps F]

/-- The origin of a rank-3 buffer. -/
theorem origin3 : (![0, 0, 0] : Fin 3 → Nat) = fun _ => 0 := funext fun a => by fin_cases a <;> rfl

/-- The zero block the first point of a run stores. -/
abbrev zeroBlock : Vec F S1x2x128 .f32 := k0_pay1

/-- Away from the start of a run the block ends at the old block plus the point's contribution. -/
theorem out_B (c : Dev nD) (i : grid0.Coords) (a2 : Memref sig .tc .vmem S1x512x512 .f32) (h2 : a2.IsWhole)
    (a3 : Memref sig .tc .vmem S1x512x512 .f32) (h3 : a3.IsWhole) (a4 : Memref sig .tc .vmem S1x512x512 .i32) (h4 : a4.IsWhole)
    (a5 : Memref sig .tc .vmem S1x2x128 .f32) (h5 : a5.IsWhole) (hc : ¬cond0_0 i)
    (x0 x1 : Vec F S1x512x512 .f32) (x2 : Vec F S1x512x512 .i32) (xo : Vec F S1x2x128 .f32) :
    out0_B_3 c i a2 h2 a3 h3 a4 h4 a5 h5 hc x0 x1 x2 xo = accumulate xo x0 x1 x2 := by
  unfold out0_B_3
  rw [View.read_writes_eq_canon _ _ _ (cover0_B_3 c i a2 h2 a3 h3 a4 h4 a5 h5 hc x0 x1 x2 xo)]
  unfold kernelRun0_B
  dsimp only
  sl_unfold_words
  rw [View.canon_unit_zero origin3]
  simp only [View.readAt_eq_ld, h2.read_unread, h3.read_unread, h4.read_unread, h5.read_unread,
    View.ld_unit_zero (S := S1x512x512) origin3, View.ld_unit_zero (S := S1x2x128) origin3]
  exact store_eq xo x0 x1 x2

/-- At the start of a run the block ends at zero plus the point's contribution. -/
theorem out_A (c : Dev nD) (i : grid0.Coords) (a2 : Memref sig .tc .vmem S1x512x512 .f32) (h2 : a2.IsWhole)
    (a3 : Memref sig .tc .vmem S1x512x512 .f32) (h3 : a3.IsWhole) (a4 : Memref sig .tc .vmem S1x512x512 .i32) (h4 : a4.IsWhole)
    (a5 : Memref sig .tc .vmem S1x2x128 .f32) (h5 : a5.IsWhole) (hc : cond0_0 i)
    (x0 x1 : Vec F S1x512x512 .f32) (x2 : Vec F S1x512x512 .i32) :
    out0_A_3 c i a2 h2 a3 h3 a4 h4 a5 h5 hc x0 x1 x2 = accumulate zeroBlock x0 x1 x2 := by
  unfold out0_A_3
  rw [View.read_writes_eq_canon _ _ _ (cover0_A_3 c i a2 h2 a3 h3 a4 h4 a5 h5 hc x0 x1 x2)]
  unfold kernelRun0_A
  dsimp only
  sl_unfold_words
  rw [View.canon_cons_unit_zero (S := S1x2x128) origin3, View.readCov_unit_zero (S := S1x2x128) _ origin3]
  simp only [View.readAt_eq_ld, h2.read_unread, h3.read_unread, h4.read_unread,
    View.ld_unit_zero (S := S1x512x512) origin3, View.ld_unit_zero (S := S1x2x128) origin3]
  exact store_eq zeroBlock x0 x1 x2

end Cert.KernelIdeal.Accumulator

end
-- ==== Proof.BlockValues.lean ====
/-
  The block contribution read as extended reals.

  At the exact instance the sum of all entries of an image is a finite sum over the block's pixels; the masked total
  of a class is the sum over the pixels of the squared error where the mask admits the pixel and its target equals
  the class value, and zero elsewhere; the masked count is the same sum of ones.  Placing a value at one lane of one
  row adds the value at that position and zero at every other.  So at lane `k < 10` the block contribution holds the
  class total of class `k` in row 0 and its count in row 1.
-/
import proofs.«156286_g80736795230576_feedfinal_77_2_alg».proof.Proof.BlockTotals
import proofs.«156286_g80736795230576_feedfinal_77_2_alg».proof.Proof.ClassTotals

set_option maxRecDepth 16384

noncomputable section

namespace Cert.KernelIdeal.BlockTotals

open Idealize.ShloMosaic Idealize.ShloMosaic.ValueIdx
open Cert.KernelIdeal Cert.KernelIdeal.Gen

/-- The image position of a block position: the block's leading coordinate (always zero) dropped. -/
abbrev px (y : S1x512x512.Idx) : S512x512.Idx := fun a => y a.succ

/-- A block position is its image position behind the leading zero. -/
theorem cons_px (y : S1x512x512.Idx) : (Fin.cons ⟨0, Nat.one_pos⟩ (px y) : S1x512x512.Idx) = y := by
  funext a
  refine Fin.cases ?_ (fun b => ?_) a
  · apply Fin.ext
    have h := (y 0).isLt
    have h1 : S1x512x512.size 0 = 1 := rfl
    show 0 = (y 0).val
    omega
  · rfl

/-- A block read as an image, at the image position of a block position, is the block there. -/
theorem shapeCast_px {α : Type} (x : S1x512x512.Idx → α) (y : S1x512x512.Idx) :
    shapeCast S512x512 x shapeCasts_S1x512x512_S512x512 (px y) = x y := by
  rw [shapeCast_dropUnit_apply ![512, 512] x shapeCasts_S1x512x512_S512x512 (px y), cons_px]

/-- The sum of all entries of an image is the sum over the block's pixels. -/
theorem total_eq (v : FVec Ideal S512x512 .f32) : total v = ∑ y : S1x512x512.Idx, v (px y) := by
  have h := Ideal.multiReduction_add_total (shapeCast S1x512x512 v shapeCasts_S512x512_S1x512x512) 0x00000000#32
    reduces_S1x512x512_S1 (fun b => by fin_cases b; rfl) (.inl rfl) rfl
  unfold total extractAt
  refine Eq.trans (h ((Shape.reshapeEquiv shapeCasts_S1_S1x1x1) fun a => ⟨![0, 0, 0] a, inpos_S1x1x1_p0_0_0 a⟩)) ?_
  refine Finset.sum_congr rfl fun y _ => ?_
  exact shapeCast_addUnit_apply ![512, 512] v shapeCasts_S512x512_S1x512x512 y

/-- The one-bit word of a truth value is one exactly when the value is true. -/
theorem ofBool_eq_one (b : Bool) : BitVec.ofBool b = 1#1 ↔ b = true := by cases b <;> decide

/-- A conjunction of two one-bit words is one exactly when both are. -/
theorem andi_eq_one_iff (c d : BitVec 1) : IntOp.andi c d = 1#1 ↔ c = 1#1 ∧ d = 1#1 := by revert c d; decide

open Classical in
/-- The class membership bit at a pixel: the mask admits it and its target is the class value. -/
theorem inClass_eq_one_iff (w : BitVec 32) (t : FVec Ideal S512x512 .f32) (ad : IVec S512x512 1) (q : S512x512.Idx) :
    inClass w t ad q = 1#1 ↔ ad q = 1#1 ∧ t q = Ideal.ofBits .f32 w := by
  show IntOp.andi (ad q) (Ideal.cmp .oeq (t q) (Ideal.ofBits .f32 w)) = 1#1 ↔ _
  rw [andi_eq_one_iff]
  refine and_congr Iff.rfl ?_
  show BitVec.ofBool (decide (t q = Ideal.ofBits .f32 w)) = 1#1 ↔ _
  rw [ofBool_eq_one, decide_eq_true_iff]

open Classical in
/-- The class total of one image as a sum over the block's pixels. -/
theorem maskedSum_eq (w : BitVec 32) (t sq : FVec Ideal S512x512 .f32) (ad : IVec S512x512 1) :
    maskedSum w t sq ad
      = ∑ y : S1x512x512.Idx, if ad (px y) = 1#1 ∧ t (px y) = Ideal.ofBits .f32 w then sq (px y) else 0 := by
  unfold maskedSum
  rw [total_eq]
  refine Finset.sum_congr rfl fun y _ => ?_
  show (if inClass w t ad (px y) = 1#1 then sq (px y) else Ideal.ofBits .f32 0x00000000#32) = _
  rw [Ideal.ofBits_zero_f32]
  exact if_congr (inClass_eq_one_iff w t ad (px y)) rfl rfl

/-- A one-bit word widened to 32 bits and read as a signed integer, as a float: one for the bit 1, zero otherwise. -/
theorem sitofp_extui_bit (b : BitVec 1) :
    (FloatOps.sitofp (F := Ideal) .f32 (b.setWidth 32) : EReal) = if b = 1#1 then 1 else 0 := by
  rcases BitVec.eq_zero_or_eq_one b with h | h <;> subst h
  · show (((0#1 : BitVec 1).setWidth 32).toInt : ℝ) = ((if (0#1 : BitVec 1) = 1#1 then 1 else 0 : EReal))
    simp
  · show (((1#1 : BitVec 1).setWidth 32).toInt : ℝ) = ((if (1#1 : BitVec 1) = 1#1 then 1 else 0 : EReal))
    simp

open Classical in
/-- The class count of one image as a sum of ones over the block's pixels. -/
theorem maskedCount_eq (w : BitVec 32) (t : FVec Ideal S512x512 .f32) (ad : IVec S512x512 1) :
    maskedCount w t ad
      = ∑ y : S1x512x512.Idx, if ad (px y) = 1#1 ∧ t (px y) = Ideal.ofBits .f32 w then 1 else 0 := by
  unfold maskedCount
  rw [total_eq]
  refine Finset.sum_congr rfl fun y _ => ?_
  show (FloatOps.sitofp (F := Ideal) .f32 ((inClass w t ad (px y)).setWidth 32) : EReal) = _
  rw [sitofp_extui_bit]
  exact if_congr (inClass_eq_one_iff w t ad (px y)) rfl rfl

/-- Two 32-bit words of small naturals are equal exactly when the naturals are. -/
theorem ofNat_eq_iff (a b : ℕ) (ha : a < 4294967296) (hb : b < 4294967296) : BitVec.ofNat 32 a = BitVec.ofNat 32 b ↔ a = b := by
  constructor
  · intro h
    have h' := congrArg BitVec.toNat h
    simp only [BitVec.toNat_ofNat] at h'
    omega
  · intro h; rw [h]

/-- The equality test of two words is the bit one exactly when they are equal. -/
theorem cmpi_eq_one_iff (x y : BitVec 32) : IntOp.cmpi .eq x y = 1#1 ↔ x = y := by
  show BitVec.ofBool (x == y) = 1#1 ↔ _
  rw [ofBool_eq_one, beq_iff_eq]

/-- Placing a value at one lane of one row: at every position the old entry plus the value there, plus zero elsewhere. -/
theorem putAt_apply (acc : FVec Ideal S2x128 .f32) (lane row : ℕ) (hl : lane < 4294967296) (hr : row < 4294967296) (val : EReal)
    (r : Fin 2) (l : Fin 128) :
    putAt acc (BitVec.ofNat 32 lane) (BitVec.ofNat 32 row) val (ix2 r l)
      = acc (ix2 r l) + if l.val = lane ∧ r.val = row then val else 0 := by
  unfold putAt
  rw [addf_apply]
  congr 1
  show (if IntOp.andi (IntOp.cmpi .eq (iota .tc S2x128 32 [1] iota_S2x128_d1_w32 (ix2 r l)) (BitVec.ofNat 32 lane))
      (IntOp.cmpi .eq (iota .tc S2x128 32 [0] iota_S2x128_d0_w32 (ix2 r l)) (BitVec.ofNat 32 row)) = 1#1 then val
      else Ideal.ofBits .f32 0x00000000#32) = _
  rw [iota_single_apply, iota_single_apply, Ideal.ofBits_zero_f32]
  refine if_congr ?_ rfl rfl
  rw [andi_eq_one_iff, cmpi_eq_one_iff, cmpi_eq_one_iff]
  have h1 : ((ix2 r l : S2x128.Idx) 1).val = l.val := rfl
  have h0 : ((ix2 r l : S2x128.Idx) 0).val = r.val := rfl
  rw [h1, h0, ofNat_eq_iff _ _ (by have := l.isLt; omega) hl, ofNat_eq_iff _ _ (by have := r.isLt; omega) hr]

end Cert.KernelIdeal.BlockTotals

end
-- ==== Proof.AccumulatorSum.lean ====
/-
  The accumulator block after each grid point, as a sum of contributions.

  The grid's 64 points run in order; points `32 i, …, 32 i + 31` share the accumulator block of core `i`.  The first
  point of a run resets the block to zero before adding; every other point adds onto what the point before left.
  So after point `n` the block holds, at every position, the sum of the contributions of the points of `n`'s run
  up to `n`: those from `n - n mod 32` to `n`.  This is an induction on the point; the extended reals' `0 + x = x`
  starts each run.
-/
import proofs.«156286_g80736795230576_feedfinal_77_2_alg».proof.Proof.AccumulatorCases
import proofs.«156286_g80736795230576_feedfinal_77_2_alg».proof.Proof.BlockValues

set_option maxRecDepth 16384

noncomputable section

namespace Cert.KernelIdeal.Accumulator

open Idealize.ShloMosaic Idealize.ShloMosaic.TcCoe Idealize.ShloMosaic.ValueIdx Idealize.SL.Sem
open Cert.KernelIdeal Cert.KernelIdeal.Gen Cert.KernelIdeal.BlockTotals

variable (m : (ℓ : Loc nD τ sig) → Buf (Elt Ideal) ℓ)

/-- The `2 × 128` position of a position of the accumulator block: its leading coordinate (always zero) dropped. -/
abbrev pos (y : S1x2x128.Idx) : S2x128.Idx := fun a => y a.succ

/-- A block position is its `2 × 128` position behind the leading zero. -/
theorem cons_pos (y : S1x2x128.Idx) : (Fin.cons ⟨0, Nat.one_pos⟩ (pos y) : S1x2x128.Idx) = y := by
  funext a
  refine Fin.cases ?_ (fun b => ?_) a
  · apply Fin.ext
    have h := (y 0).isLt
    have h1 : S1x2x128.size 0 = 1 := rfl
    show 0 = (y 0).val
    omega
  · rfl

/-- An accumulation at a position: the old entry plus the contribution's entry. -/
theorem accumulate_apply (xo : Vec Ideal S1x2x128 .f32) (x0 x1 : Vec Ideal S1x512x512 .f32) (x2 : Vec Ideal S1x512x512 .i32)
    (y : S1x2x128.Idx) : accumulate xo x0 x1 x2 y = xo y + blockRes x0 x1 x2 (pos y) := by
  unfold accumulate
  refine (shapeCast_addUnit_apply ![2, 128] _ shapeCasts_S2x128_S1x2x128 y).trans ?_
  show addf (shapeCast S2x128 xo shapeCasts_S1x2x128_S2x128) (blockRes x0 x1 x2) (pos y) = _
  rw [addf_apply, shapeCast_dropUnit_apply ![2, 128] xo shapeCasts_S1x2x128_S2x128 (pos y), cons_pos]

/-- The zero block is zero everywhere. -/
theorem zeroBlock_apply (y : S1x2x128.Idx) : (zeroBlock (F := Ideal)) y = 0 := by
  show Ideal.ofBits .f32 0x00000000#32 = 0
  exact Ideal.ofBits_zero_f32

/-- The contribution of grid point `k` on core `c`: the block contribution of the three images staged there. -/
def contrib (c : Dev nD) (k : ℕ) : FVec Ideal S2x128 .f32 :=
  if h : k < cfg0.N then blockRes (iblk m c 0 ⟨k, h⟩) (iblk m c 1 ⟨k, h⟩) (iblk m c 2 ⟨k, h⟩) else fun _ => 0

theorem contrib_of_lt (c : Dev nD) (k : ℕ) (h : k < cfg0.N) :
    contrib m c k = blockRes (iblk m c 0 ⟨k, h⟩) (iblk m c 1 ⟨k, h⟩) (iblk m c 2 ⟨k, h⟩) := dif_pos h

/-- After point `n` the accumulator block holds the sum of the contributions of `n`'s run up to `n`. -/
theorem outsAt_apply (c : Dev nD) : ∀ (n : ℕ) (h : n < cfg0.N) (y : S1x2x128.Idx),
    outsAt0 m c n h y = ∑ k ∈ Finset.Ico (n - n % 32) (n + 1), contrib m c k (pos y)
  | 0, h, y => by
    have e := outsAt0_A m c ⟨0, h⟩ rfl
    refine ((congrFun e y).trans (congrFun (out_A c (grid0.coords ⟨0, h⟩) (ms0_0 ⟨0, h⟩) (hs0_0 ⟨0, h⟩) (ms0_1 ⟨0, h⟩)
      (hs0_1 ⟨0, h⟩) (ms0_2 ⟨0, h⟩) (hs0_2 ⟨0, h⟩) (ms0_3 ⟨0, h⟩) (hs0_3 ⟨0, h⟩) ((hcond0_0 ⟨0, h⟩).mpr rfl)
      (iblk m c 0 ⟨0, h⟩) (iblk m c 1 ⟨0, h⟩) (iblk m c 2 ⟨0, h⟩)) y)).trans ?_
    rw [accumulate_apply, zeroBlock_apply, zero_add]
    show _ = ∑ k ∈ Finset.Ico 0 1, contrib m c k (pos y)
    rw [Nat.Ico_succ_singleton, Finset.sum_singleton, contrib_of_lt m c 0 h]
  | n + 1, h, y => by
    by_cases h0 : (n + 1) % 32 = 0
    · have e := outsAt0_A m c ⟨n + 1, h⟩ h0
      refine ((congrFun e y).trans (congrFun (out_A c (grid0.coords ⟨n + 1, h⟩) (ms0_0 ⟨n + 1, h⟩) (hs0_0 ⟨n + 1, h⟩)
        (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩)
        ((hcond0_0 ⟨n + 1, h⟩).mpr h0) (iblk m c 0 ⟨n + 1, h⟩) (iblk m c 1 ⟨n + 1, h⟩) (iblk m c 2 ⟨n + 1, h⟩)) y)).trans ?_
      rw [accumulate_apply, zeroBlock_apply, zero_add, h0, Nat.sub_zero, Nat.Ico_succ_singleton, Finset.sum_singleton,
        contrib_of_lt m c (n + 1) h]
    · have e := outsAt0_B m c ⟨n + 1, h⟩ h0
      refine ((congrFun e y).trans (congrFun (out_B c (grid0.coords ⟨n + 1, h⟩) (ms0_0 ⟨n + 1, h⟩) (hs0_0 ⟨n + 1, h⟩)
        (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩)
        (fun hh => h0 ((hcond0_0 ⟨n + 1, h⟩).mp hh)) (iblk m c 0 ⟨n + 1, h⟩) (iblk m c 1 ⟨n + 1, h⟩) (iblk m c 2 ⟨n + 1, h⟩)
        (outsAt0 m c n (Nat.lt_of_succ_lt h))) y)).trans ?_
      rw [accumulate_apply, outsAt_apply c n (Nat.lt_of_succ_lt h) y]
      have hlo : n + 1 - (n + 1) % 32 = n - n % 32 := by omega
      have hle : n - n % 32 ≤ n + 1 := by omega
      rw [hlo, Finset.sum_Ico_succ_top hle, contrib_of_lt m c (n + 1) h]

end Cert.KernelIdeal.Accumulator

end
-- ==== Proof.AccumulatorArray.lean ====
/-
  The accumulator array after the run.

  The accumulator array has shape `2 × 2 × 128`: core, row, lane.  Core `i`'s block is written back once, after the
  last point `32 i + 31` of its run, and by then it holds the sum of the contributions of all 32 points of the run.
  The two write-backs cover the array, so entry `(i, r, l)` of the array after the run is the sum over
  `k = 32 i, …, 32 i + 31` of the contribution of point `k` at `(r, l)`.
-/
import proofs.«156286_g80736795230576_feedfinal_77_2_alg».proof.Proof.AccumulatorSum
import proofs.«156286_g80736795230576_feedfinal_77_2_alg».proof.Proof.Gen.KernelIdeal.Points

set_option maxRecDepth 16384

noncomputable section

namespace Cert.KernelIdeal.Accumulator

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.BlockTotals

variable (m : (ℓ : Loc nD τ sig) → Buf (Elt Ideal) ℓ)

/-- The accumulator window's block index at point `t` is `(t / 32, 0, 0)`: decided over the grid. -/
theorem acc_index : ∀ t : Fin cfg0.N, win0_3.index t (0 : Fin 3) = t.val / 32 ∧ win0_3.index t (1 : Fin 3) = 0
    ∧ win0_3.index t (2 : Fin 3) = 0 :=
  (by decide +kernel : ∀ t : Fin grid0.N, _)

/-- The array the run leaves: at `(i, r, l)` the sum of the contributions of core `i`'s 32 points at `(r, l)`. -/
def accArr (c : Dev nD) : S2x2x128.Idx → EReal :=
  fun p => ∑ k ∈ Finset.Ico (32 * (p 0).val) (32 * (p 0).val + 32), contrib m c k (fun a => p a.succ)

/-- What a write-back writes is the block of that array at the point's block index. -/
theorem flushed_eq (c : Dev nD) (t : Fin cfg0.N) (hf : (cfg0.win 3).flush t = true) :
    (dats m 0 c).flushed 3 t = ((cfg0.win 3).blk t).view.read (Elt Ideal) (accArr m c) := by
  have h31 : t.val % 32 = 31 := (flush0_3 t).mp hf
  show (cfg0.win 3).cut (grid0.coords t) ((dats m 0 c).after 3 t) = _
  rw [after0_3]
  obtain ⟨e0, e1, e2⟩ := acc_index t
  funext y
  show outsAt0 m c t.val t.isLt y = accArr m c (((cfg0.win 3).blk t).view.emb y)
  rw [outsAt_apply m c t.val t.isLt y]
  unfold accArr
  have hp0 : ((((cfg0.win 3).blk t).view.emb y) 0).val = t.val / 32 := by
    show win0_3.index t (0 : Fin 3) * 1 + 1 * (y 0).val = t.val / 32
    have hy : (y 0).val < 1 := (y 0).isLt
    omega
  have hpos : (fun a : Fin 2 => (((cfg0.win 3).blk t).view.emb y) a.succ) = pos y := by
    funext a
    apply Fin.ext
    match a with
    | ⟨0, _⟩ => show win0_3.index t (1 : Fin 3) * 2 + 1 * (y 1).val = (y 1).val; omega
    | ⟨1, _⟩ => show win0_3.index t (2 : Fin 3) * 128 + 1 * (y 2).val = (y 2).val; omega
  rw [hp0, hpos]
  have hlo : t.val - t.val % 32 = 32 * (t.val / 32) := by omega
  have hhi : t.val + 1 = 32 * (t.val / 32) + 32 := by omega
  rw [hlo, hhi]

/-- An index of the array lies in point `t`'s block exactly when each coordinate lies in the block's range. -/
theorem mem_blk (t : Fin cfg0.N) (i : S2x2x128.Idx) :
    i ∈ ((cfg0.win 3).blk t).view.set ↔ ∀ a : Fin 3, win0_3.index t a * S1x2x128.size a ≤ (i a).val
      ∧ (i a).val < win0_3.index t a * S1x2x128.size a + S1x2x128.size a := by
  show i ∈ ((View.whole main_v0).slice (win0_3.rect t)).set ↔ _
  rw [View.set_slice_whole, Rect.mem_set_unit]
  exact Iff.rfl

/-- Every entry of the array is in the block of the last point of its core's run, which is written back. -/
theorem cover (i : S2x2x128.Idx) : ∃ t : Fin cfg0.N, (cfg0.win 3).flush t = true ∧ i ∈ ((cfg0.win 3).blk t).view.set := by
  have hi0 : (i 0).val < 2 := (i 0).isLt
  have hi1 : (i 1).val < 2 := (i 1).isLt
  have hi2 : (i 2).val < 128 := (i 2).isLt
  have hN : cfg0.N = 64 := N_0
  let t : Fin cfg0.N := ⟨32 * (i 0).val + 31, by rw [hN]; omega⟩
  have ht : t.val = 32 * (i 0).val + 31 := rfl
  obtain ⟨e0, e1, e2⟩ := acc_index t
  refine ⟨t, (flush0_3 t).mpr (by rw [ht]; omega), ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 2 ≤ (i 1).val ∧ (i 1).val < win0_3.index t (1 : Fin 3) * 2 + 2; omega
  | ⟨2, _⟩ => show win0_3.index t (2 : Fin 3) * 128 ≤ (i 2).val ∧ (i 2).val < win0_3.index t (2 : Fin 3) * 128 + 128; omega

/-- The accumulator array after the run. -/
theorem final (c : Dev nD) : (dats m 0 c).arrAt 3 cfg0.N = accArr m c :=
  (dats m 0 c).arrAt_eq_of_cover 3 (accArr m c) (fun t hf => flushed_eq m c t hf) (cover)

end Cert.KernelIdeal.Accumulator

end
-- ==== Proof.KernelTail.lean ====
/-
  The idealized kernel's host tail: from the accumulator array to the three results.

  The region leaves a `2 × 2 × 128` accumulator array (core, row, lane).  The host lines after it add the two cores'
  planes, read the first ten lanes of row 0 as the class totals and of row 1 as the class counts, and then apply the
  shared tail: the per-class loss is total / max(count, 1) where the count is positive and 0 elsewhere, and the loss
  is the sum over the classes of the weight 0.1 times the per-class loss.
-/
import proofs.«156286_g80736795230576_feedfinal_77_2_alg».proof.Proof.Gen.KernelIdeal.Frame
import proofs.«156286_g80736795230576_feedfinal_77_2_alg».proof.Proof.ClassTotals
import Idealize.ShloMosaic.Lib.StableHlo.Run
import Idealize.ShloMosaic.Lib.Pipeline.FrameSuffix

noncomputable section

namespace Cert.KernelIdeal.KernelValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Idealize.ShloMosaic.StableHlo
open Cert.KernelIdeal.Gen

variable {F : FTy → Type} [FloatOps F]

/-- The class totals read off the accumulator array: the two cores' planes added, row 0, lanes 0–9. -/
def kernSums (acc : FVec F S2x2x128 .f32) : FVec F S10 .f32 :=
  shapeCast S10
    (extractStridedSlice S1x10 ![0, 0]
      (Host.reduceAdd acc (constant (F := F) S_ .f32 0x00000000#32) reducesTo_S2x2x128_S2x128_d0 h_S_)
      slices_S2x128_S1x10_0_0)
    shapeCasts_S1x10_S10

/-- The class counts read off the accumulator array: the two cores' planes added, row 1, lanes 0–9. -/
def kernCounts (acc : FVec F S2x2x128 .f32) : FVec F S10 .f32 :=
  shapeCast S10
    (extractStridedSlice S1x10 ![1, 0]
      (Host.reduceAdd acc (constant (F := F) S_ .f32 0x00000000#32) reducesTo_S2x2x128_S2x128_d0 h_S_)
      slices_S2x128_S1x10_1_0)
    shapeCasts_S1x10_S10

/-- The per-class losses from the accumulator array. -/
def kernEach (acc : FVec F S2x2x128 .f32) : FVec F S10 .f32 :=
  ClassTotals.lossEach bcast_S_S10 (kernSums acc) (kernCounts acc)

/-- The loss from the accumulator array. -/
def kernLoss (acc : FVec F S2x2x128 .f32) : FVec F S_ .f32 :=
  ClassTotals.lossOf reducesTo_S10_S_d0 h_S_
    (broadcastInDim S10 ![] bcast_S_S10 (constant (F := F) S_ .f32 0x3DCCCCCD#32)) (kernEach acc)

theorem kernEach_def (acc : FVec F S2x2x128 .f32) :
    kernEach acc = ClassTotals.lossEach bcast_S_S10 (kernSums acc) (kernCounts acc) := rfl

theorem kernLoss_def (acc : FVec F S2x2x128 .f32) :
    kernLoss acc = ClassTotals.lossOf reducesTo_S10_S_d0 h_S_
      (broadcastInDim S10 ![] bcast_S_S10 (constant (F := F) S_ .f32 0x3DCCCCCD#32))
      (ClassTotals.lossEach bcast_S_S10 (kernSums acc) (kernCounts acc)) := rfl

variable (m : (ℓ : Loc nD τ sig) → Buf (Elt F) ℓ) (ρ : Dev nD → PrngReg)

/-- The accumulator array as the region leaves it on core `c`. -/
abbrev accOf (c : Dev nD) : FVec F S2x2x128 .f32 := (dats m 0 c).arrAt 3 cfg0.N

/-- The region's exit contents at the accumulator's buffer are the accumulator array. -/
theorem exit_acc (c : Dev nD) :
    Pipeline.withArrays (cfgs 0).spec c (V0 m c) (fun w => (dats m 0 c).arrAt w (cfgs 0).N) (Proc.devRef .tc main_v0)
      = accOf m c :=
  Pipeline.withArrays_arr spec0 launch0.win.arr_inj c _ _ 3

/-- After the host lines, the counts' buffer holds the class counts of the accumulator array. -/
theorem tail_v5 (c : Dev nD) :
    Pipeline.afterTail₀ cfgs (dats m) 0 (V0 m) [hostOps1, hostOps1_1, hostOps1_2] c main_v5 = kernCounts (accOf m c) := by
  unfold Pipeline.afterTail₀
  simp only [hostOps1, hostOps1_1, hostOps1_2, List.flatten_cons, List.flatten_nil, List.append_nil, List.cons_append, List.nil_append]
  after_results
  exact congrArg kernCounts (exit_acc m c)

/-- After the host lines, the per-class buffer holds the per-class losses of the accumulator array. -/
theorem tail_v11 (c : Dev nD) :
    Pipeline.afterTail₀ cfgs (dats m) 0 (V0 m) [hostOps1, hostOps1_1, hostOps1_2] c main_v11 = kernEach (accOf m c) := by
  unfold Pipeline.afterTail₀
  simp only [hostOps1, hostOps1_1, hostOps1_2, List.flatten_cons, List.flatten_nil, List.append_nil, List.cons_append, List.nil_append]
  after_results
  exact congrArg kernEach (exit_acc m c)

/-- After the host lines, the scalar buffer holds the loss of the accumulator array. -/
theorem tail_v14 (c : Dev nD) :
    Pipeline.afterTail₀ cfgs (dats m) 0 (V0 m) [hostOps1, hostOps1_1, hostOps1_2] c main_v14 = kernLoss (accOf m c) := by
  unfold Pipeline.afterTail₀
  simp only [hostOps1, hostOps1_1, hostOps1_2, List.flatten_cons, List.flatten_nil, List.append_nil, List.cons_append, List.nil_append]
  after_results
  exact congrArg kernLoss (exit_acc m c)

/-- THE KERNEL'S RUN READ BACK: every weakly fair execution terminates; on each core the three results are the loss, the
    per-class losses and the class counts computed from the accumulator array the region leaves, and the argument
    arrays are unchanged. -/
theorem run : θ_run defs (onTc (τ := τ) (main (F := F))) ⟨m, fun _ => 0, ρ⟩ (fun r => ∀ c : Dev nD,
      r.2.mem ((c.tc : Thread nD τ).loc main_v14) = kernLoss (accOf m c)
      ∧ r.2.mem ((c.tc : Thread nD τ).loc main_v11) = kernEach (accOf m c)
      ∧ r.2.mem ((c.tc : Thread nD τ).loc main_v5) = kernCounts (accOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h c).2 main_v14 (Pipeline.mem_restRefs_of main_v14 rfl (by decide))).trans (tail_v14 m c),
     ((h c).2 main_v11 (Pipeline.mem_restRefs_of main_v11 rfl (by decide))).trans (tail_v11 m c),
     ((h c).2 main_v5 (Pipeline.mem_restRefs_of main_v5 rfl (by decide))).trans (tail_v5 m c),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c))),
     ((h c).1 2).trans (((dats m 0 c).arrAt_in 2 rfl _).trans ((A_eq m c 2).trans (V_main_arg2 m c)))⟩)
    (run_main m ρ)

end Cert.KernelIdeal.KernelValue

end
-- ==== Proof.BlockLanes.lean ====
/-
  The block contribution lane by lane.

  The contribution starts at zero and receives twenty placements: for each class `k` its total at lane `k` of row 0
  and its count at lane `k` of row 1.  At the position of lane `k < 10` and row `r` exactly one placement matches,
  so the entry there is the total (row 0) or the count (row 1) of class `k`: every other placement adds zero.
-/
import proofs.«156286_g80736795230576_feedfinal_77_2_alg».proof.Proof.BlockValues

set_option maxRecDepth 16384

noncomputable section

namespace Cert.KernelIdeal.BlockTotals

open Idealize.ShloMosaic Idealize.ShloMosaic.ValueIdx
open Cert.KernelIdeal Cert.KernelIdeal.Gen

/-- Lane `k` of the `128` lanes, for a class `k`. -/
abbrev laneOf (k : Fin 10) : Fin 128 := ⟨k.val, by have := k.isLt; omega⟩

/-- One class's two placements at a position: the total where lane and row 0 match, the count where lane and row 1 do. -/
theorem classStep_apply (acc : FVec Ideal S2x128 .f32) (lane : ℕ) (hl : lane < 4294967296) (w : BitVec 32)
    (t sq : FVec Ideal S512x512 .f32) (ad : IVec S512x512 1) (r : Fin 2) (l : Fin 128) :
    classStep acc (BitVec.ofNat 32 lane) w t sq ad (ix2 r l)
      = acc (ix2 r l) + (if l.val = lane ∧ r.val = 0 then maskedSum w t sq ad else 0)
          + (if l.val = lane ∧ r.val = 1 then maskedCount w t ad else 0) := by
  unfold classStep
  rw [putAt_apply _ lane 1 hl (by norm_num), putAt_apply _ lane 0 hl (by norm_num)]

/-- At lane `k` the contribution holds class `k`'s total in row 0 and its count in row 1. -/
theorem blockRes_apply (x0 x1 : Vec Ideal S1x512x512 .f32) (x2 : Vec Ideal S1x512x512 .i32) (r : Fin 2) (k : Fin 10) :
    blockRes x0 x1 x2 (ix2 r (laneOf k))
      = if r.val = 0 then maskedSum (ClassTotals.classWord k) (image x1) (sqErr x0 x1) (admitted x2)
        else maskedCount (ClassTotals.classWord k) (image x1) (admitted x2) := by
  unfold blockRes
  rw [classStep_apply _ 9 (by norm_num), classStep_apply _ 8 (by norm_num), classStep_apply _ 7 (by norm_num),
    classStep_apply _ 6 (by norm_num), classStep_apply _ 5 (by norm_num), classStep_apply _ 4 (by norm_num),
    classStep_apply _ 3 (by norm_num), classStep_apply _ 2 (by norm_num), classStep_apply _ 1 (by norm_num),
    classStep_apply _ 0 (by norm_num), broadcast_apply]
  have hz : (FloatOps.ofBits (F := Ideal) .f32 0x00000000#32 : EReal) = 0 := Ideal.ofBits_zero_f32
  rw [hz]
  fin_cases k <;> fin_cases r <;> simp [ClassTotals.classWord]

end Cert.KernelIdeal.BlockTotals

end
-- ==== Proof.BlockPixels.lean ====
/-
  The staged blocks are images of the volume.

  Grid point `t` (of 64) stages block `t` of each of the three inputs: pixel `y` of the block is pixel
  `(t, y₁, y₂)` of the `64 × 512 × 512` volume.  So at lane `k` the point's contribution holds, in row 0, the sum
  over image `t` of the squared error at the pixels the mask admits whose target is the value of class `k`, and in
  row 1 the number of those pixels.
-/
import proofs.«156286_g80736795230576_feedfinal_77_2_alg».proof.Proof.BlockLanes
import proofs.«156286_g80736795230576_feedfinal_77_2_alg».proof.Proof.AccumulatorSum
import proofs.«156286_g80736795230576_feedfinal_77_2_alg».proof.Proof.ClassTotals

set_option maxRecDepth 16384

noncomputable section

namespace Cert.KernelIdeal.Accumulator

open Idealize.ShloMosaic Idealize.ShloMosaic.TcCoe Idealize.ShloMosaic.ValueIdx Idealize.SL.Sem
open Cert.KernelIdeal Cert.KernelIdeal.Gen Cert.KernelIdeal.BlockTotals Cert.ClassTotals

variable (m : (ℓ : Loc nD τ sig) → Buf (Elt Ideal) ℓ)

/-- Pixel `y` of image `b`, as a pixel of the volume. -/
def pixel (b : Fin 64) (y : Blk.Idx) : Vol.Idx :=
  ix3 b ⟨(y 1).val, (y 1).isLt⟩ ⟨(y 2).val, (y 2).isLt⟩

theorem pixel_0 (b : Fin 64) (y : Blk.Idx) : ((pixel b y) 0).val = b.val := rfl
theorem pixel_1 (b : Fin 64) (y : Blk.Idx) : ((pixel b y) 1).val = (y 1).val := rfl
theorem pixel_2 (b : Fin 64) (y : Blk.Idx) : ((pixel b y) 2).val = (y 2).val := rfl

/-- The three input windows' block index at point `t` is `(t, 0, 0)`: decided over the grid. -/
theorem in_index : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0) :=
  (by decide +kernel : ∀ t : Fin grid0.N, _)

/-- The image a grid point stages. -/
def imageOf (t : Fin cfg0.N) : Fin 64 := ⟨t.val, lt_of_lt_of_eq t.isLt N_0⟩

/-- The outputs block at point `t` is image `t` of the outputs. -/
theorem iblk0_apply (c : Dev nD) (t : Fin cfg0.N) (y : S1x512x512.Idx) :
    (iblk m c 0 t : Vec Ideal S1x512x512 .f32) y = m ((c.tc : Thread nD τ).loc main_arg0) (pixel (imageOf t) y) := by
  obtain ⟨⟨e0, e1, e2⟩, -, -⟩ := in_index t
  unfold iblk
  rw [View.read_apply]
  show V m c main_arg0 _ = m (c.tc.loc main_arg0) _
  unfold V
  congr 1
  funext a
  apply Fin.ext
  match a with
  | ⟨0, _⟩ => show win0_0.index t (0 : Fin 3) * 1 + 1 * (y 0).val = t.val; have : (y 0).val < 1 := (y 0).isLt; omega
  | ⟨1, _⟩ => show win0_0.index t (1 : Fin 3) * 512 + 1 * (y 1).val = (y 1).val; omega
  | ⟨2, _⟩ => show win0_0.index t (2 : Fin 3) * 512 + 1 * (y 2).val = (y 2).val; omega

/-- The targets block at point `t` is image `t` of the targets. -/
theorem iblk1_apply (c : Dev nD) (t : Fin cfg0.N) (y : S1x512x512.Idx) :
    (iblk m c 1 t : Vec Ideal S1x512x512 .f32) y = m ((c.tc : Thread nD τ).loc main_arg1) (pixel (imageOf t) y) := by
  obtain ⟨-, ⟨e0, e1, e2⟩, -⟩ := in_index t
  unfold iblk
  rw [View.read_apply]
  show V m c main_arg1 _ = m (c.tc.loc main_arg1) _
  unfold V
  congr 1
  funext a
  apply Fin.ext
  match a with
  | ⟨0, _⟩ => show win0_1.index t (0 : Fin 3) * 1 + 1 * (y 0).val = t.val; have : (y 0).val < 1 := (y 0).isLt; omega
  | ⟨1, _⟩ => show win0_1.index t (1 : Fin 3) * 512 + 1 * (y 1).val = (y 1).val; omega
  | ⟨2, _⟩ => show win0_1.index t (2 : Fin 3) * 512 + 1 * (y 2).val = (y 2).val; omega

/-- The mask block at point `t` is image `t` of the mask. -/
theorem iblk2_apply (c : Dev nD) (t : Fin cfg0.N) (y : S1x512x512.Idx) :
    (iblk m c 2 t : Vec Ideal S1x512x512 .i32) y = m ((c.tc : Thread nD τ).loc main_arg2) (pixel (imageOf t) y) := by
  obtain ⟨-, -, ⟨e0, e1, e2⟩⟩ := in_index t
  unfold iblk
  rw [View.read_apply]
  show V m c main_arg2 _ = m (c.tc.loc main_arg2) _
  unfold V
  congr 1
  funext a
  apply Fin.ext
  match a with
  | ⟨0, _⟩ => show win0_2.index t (0 : Fin 3) * 1 + 1 * (y 0).val = t.val; have : (y 0).val < 1 := (y 0).isLt; omega
  | ⟨1, _⟩ => show win0_2.index t (1 : Fin 3) * 512 + 1 * (y 1).val = (y 1).val; omega
  | ⟨2, _⟩ => show win0_2.index t (2 : Fin 3) * 512 + 1 * (y 2).val = (y 2).val; omega

open Classical in
/-- One pixel's term of a class total. -/
def sumTerm (o t : Vol.Idx → EReal) (mk : Vol.Idx → BitVec 32) (k : Fin 10) (p : Vol.Idx) : EReal :=
  if mk p = 1#32 ∧ t p = classVal k then (o p - t p) * (o p - t p) else 0

open Classical in
/-- One pixel's term of a class count. -/
def countTerm (t : Vol.Idx → EReal) (mk : Vol.Idx → BitVec 32) (k : Fin 10) (p : Vol.Idx) : EReal :=
  if mk p = 1#32 ∧ t p = classVal k then 1 else 0

/-- The mask admits a pixel of the block exactly when its mask word is one. -/
theorem admitted_iff (x2 : Vec Ideal S1x512x512 .i32) (y : S1x512x512.Idx) : admitted x2 (px y) = 1#1 ↔ x2 y = 1#32 := by
  show IntOp.cmpi .eq (shapeCast S512x512 x2 shapeCasts_S1x512x512_S512x512 (px y)) 1#32 = 1#1 ↔ _
  rw [cmpi_eq_one_iff, shapeCast_px]

/-- Row 0 of lane `k` of the contribution of three blocks that are image `b` of three arrays: the class total over
    that image. -/
theorem blockRes_row0 (o t : Vol.Idx → EReal) (mk : Vol.Idx → BitVec 32) (x0 x1 : Vec Ideal S1x512x512 .f32)
    (x2 : Vec Ideal S1x512x512 .i32) (b : Fin 64) (h0 : ∀ y, x0 y = o (pixel b y)) (h1 : ∀ y, x1 y = t (pixel b y))
    (h2 : ∀ y, x2 y = mk (pixel b y)) (k : Fin 10) :
    blockRes x0 x1 x2 (ix2 (0 : Fin 2) (laneOf k)) = ∑ y : Blk.Idx, sumTerm o t mk k (pixel b y) := by
  rw [blockRes_apply, if_pos (show ((0 : Fin 2).val = 0) from rfl), maskedSum_eq]
  refine Finset.sum_congr rfl fun y _ => ?_
  unfold sumTerm
  have hsq : sqErr x0 x1 (px y) = (o (pixel b y) - t (pixel b y)) * (o (pixel b y) - t (pixel b y)) := by
    unfold sqErr image
    rw [mulf_apply, subf_apply, shapeCast_px, shapeCast_px, h0 y, h1 y]
  have himg : image x1 (px y) = t (pixel b y) := by
    unfold image
    rw [shapeCast_px, h1 y]
  have had : admitted x2 (px y) = 1#1 ↔ mk (pixel b y) = 1#32 := by
    rw [admitted_iff, h2 y]
  rw [hsq, himg]
  exact if_congr (and_congr had Iff.rfl) rfl rfl

/-- Row 1 of lane `k` likewise: the class count over that image. -/
theorem blockRes_row1 (t : Vol.Idx → EReal) (mk : Vol.Idx → BitVec 32) (x0 x1 : Vec Ideal S1x512x512 .f32)
    (x2 : Vec Ideal S1x512x512 .i32) (b : Fin 64) (h1 : ∀ y, x1 y = t (pixel b y))
    (h2 : ∀ y, x2 y = mk (pixel b y)) (k : Fin 10) :
    blockRes x0 x1 x2 (ix2 (1 : Fin 2) (laneOf k)) = ∑ y : Blk.Idx, countTerm t mk k (pixel b y) := by
  rw [blockRes_apply, if_neg (show ¬((1 : Fin 2).val = 0) from by decide), maskedCount_eq]
  refine Finset.sum_congr rfl fun y _ => ?_
  unfold countTerm
  have himg : image x1 (px y) = t (pixel b y) := by
    unfold image
    rw [shapeCast_px, h1 y]
  have had : admitted x2 (px y) = 1#1 ↔ mk (pixel b y) = 1#32 := by
    rw [admitted_iff, h2 y]
  rw [himg]
  exact if_congr (and_congr had Iff.rfl) rfl rfl

/-- Row 0 of lane `k` of a point's contribution: the class total over the point's image. -/
theorem contrib_row0 (c : Dev nD) (t : Fin cfg0.N) (k : Fin 10) :
    contrib m c t.val (ix2 (0 : Fin 2) (laneOf k))
      = ∑ y : Blk.Idx, sumTerm (m ((c.tc : Thread nD τ).loc main_arg0)) (m ((c.tc : Thread nD τ).loc main_arg1))
          (m ((c.tc : Thread nD τ).loc main_arg2)) k (pixel (imageOf t) y) := by
  rw [contrib_of_lt m c t.val t.isLt]
  exact blockRes_row0 (m ((c.tc : Thread nD τ).loc main_arg0)) (m ((c.tc : Thread nD τ).loc main_arg1))
    (m ((c.tc : Thread nD τ).loc main_arg2)) (iblk m c 0 t) (iblk m c 1 t) (iblk m c 2 t) (imageOf t)
    (iblk0_apply m c t) (iblk1_apply m c t) (iblk2_apply m c t) k

/-- Row 1 of lane `k` of a point's contribution: the class count over the point's image. -/
theorem contrib_row1 (c : Dev nD) (t : Fin cfg0.N) (k : Fin 10) :
    contrib m c t.val (ix2 (1 : Fin 2) (laneOf k))
      = ∑ y : Blk.Idx, countTerm (m ((c.tc : Thread nD τ).loc main_arg1)) (m ((c.tc : Thread nD τ).loc main_arg2)) k
          (pixel (imageOf t) y) := by
  rw [contrib_of_lt m c t.val t.isLt]
  exact blockRes_row1 (m ((c.tc : Thread nD τ).loc main_arg1)) (m ((c.tc : Thread nD τ).loc main_arg2))
    (iblk m c 0 t) (iblk m c 1 t) (iblk m c 2 t) (imageOf t) (iblk1_apply m c t) (iblk2_apply m c t) k

end Cert.KernelIdeal.Accumulator

end
-- ==== Proof.SumBlocks.lean ====
/-
  Regrouping a sum over the volume into the grid of image blocks.

  A pixel of the `64 × 512 × 512` volume is a triple (image, row, column), and a pixel of one `1 × 512 × 512` block is
  a triple (0, row, column); so the pixels of the volume are in bijection with the pairs (image `b`, block pixel `y`),
  the pair going to the pixel (b, y 1, y 2).  A finite sum in a commutative monoid does not depend on the order of its
  terms, hence the sum over the volume is the sum over the images of the sums over each image's block.  The 64 images
  are themselves the points (i, j) of a `2 × 32` grid, image `32·i + j` at the point (i, j).
-/
import proofs.«156286_g80736795230576_feedfinal_77_2_alg».proof.Proof.ClassTotals
import Idealize.ShloMosaic.Lib.ValueIdx
import Mathlib.Algebra.BigOperators.Fin
import Mathlib.Logic.Equiv.Fin.Basic

noncomputable section

open scoped BigOperators

namespace Cert.ClassTotals

open Idealize.ShloMosaic Idealize.ShloMosaic.ValueIdx

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The sum over the volume is the sum over the images of the sums over each image's block, when `e b y` is the
    pixel (b, y 1, y 2). -/
theorem sum_vol_eq_sum_blocks {M : Type} [AddCommMonoid M] (g : Vol.Idx → M) (e : Fin 64 → Blk.Idx → Vol.Idx)
    (he0 : ∀ b y, ((e b y) 0).val = b.val) (he1 : ∀ b y, ((e b y) 1).val = (y 1).val)
    (he2 : ∀ b y, ((e b y) 2).val = (y 2).val) :
    ∑ p : Vol.Idx, g p = ∑ b : Fin 64, ∑ y : Blk.Idx, g (e b y) := by
  have hE : ∀ (b : Fin 64) (y : Blk.Idx), e b y = ix3 (n0 := 64) (n1 := 512) (n2 := 512) b (y 1) (y 2) := by
    intro b y
    funext a
    match a with
    | ⟨0, _⟩ => exact Fin.ext (he0 b y)
    | ⟨1, _⟩ => exact Fin.ext (he1 b y)
    | ⟨2, _⟩ => exact Fin.ext (he2 b y)
  rw [sum_idx3 (n0 := 64) (n1 := 512) (n2 := 512) g]
  refine Finset.sum_congr rfl fun b _ => ?_
  rw [sum_idx3 (n0 := 1) (n1 := 512) (n2 := 512) (fun y : Blk.Idx => g (e b y)), Fin.sum_univ_one]
  refine Finset.sum_congr rfl fun r _ => Finset.sum_congr rfl fun c _ => ?_
  rw [hE]

/-- The 64 images as the points of the `2 × 32` grid: image `32·i + j` at the point (i, j). -/
theorem sum_fin64_eq_sum_2_32 {M : Type} [AddCommMonoid M] (h : Fin 64 → M) :
    ∑ b : Fin 64, h b = ∑ i : Fin 2, ∑ j : Fin 32, h ⟨32 * i.val + j.val, by omega⟩ := by
  have hs := Equiv.sum_comp (finProdFinEquiv (m := 2) (n := 32)) (h : Fin (2 * 32) → M)
  rw [Fintype.sum_prod_type] at hs
  refine hs.symm.trans ?_
  refine Finset.sum_congr rfl fun i _ => Finset.sum_congr rfl fun j _ => ?_
  refine congrArg h (Fin.ext ?_)
  show (j.val + 32 * i.val) = 32 * i.val + j.val
  omega

end Cert.ClassTotals

end
-- ==== Proof.KernelTotals.lean ====
/-
  The tail's two vectors of the accumulator array are the class totals and the class counts.

  Entry (i, r, l) of the accumulator array is the sum over the 32 grid points of core i of the points' contributions at
  (r, l).  The host tail adds the two cores' planes and reads lanes 0–9 of row 0 and of row 1.  Lane k of row 0 of a
  point's contribution is the class-k total over the image the point stages, and of row 1 the class-k count.  The 64
  grid points stage the 64 images, so adding over the two cores and the 32 points of each is adding over the images,
  and adding over the images of the sums over each image's pixels is the sum over the whole volume.
-/
import proofs.«156286_g80736795230576_feedfinal_77_2_alg».proof.Proof.KernelTail
import proofs.«156286_g80736795230576_feedfinal_77_2_alg».proof.Proof.AccumulatorArray
import proofs.«156286_g80736795230576_feedfinal_77_2_alg».proof.Proof.BlockPixels
import proofs.«156286_g80736795230576_feedfinal_77_2_alg».proof.Proof.SumBlocks
import Idealize.ShloMosaic.Lib.Pipeline.Value
import Idealize.ShloMosaic.PureOps.Ideal.Laws

set_option maxRecDepth 16384

noncomputable section

namespace Cert.KernelIdeal.KernelValue

open Idealize.ShloMosaic Idealize.ShloMosaic.TcCoe Idealize.ShloMosaic.ValueIdx Idealize.SL.Sem
open Cert.KernelIdeal Cert.KernelIdeal.Gen Cert.KernelIdeal.BlockTotals Cert.KernelIdeal.Accumulator Cert.ClassTotals

variable (m : (ℓ : Loc nD τ sig) → Buf (Elt Ideal) ℓ)

/-- The two cores' planes added, at row `r` and lane `l`: the sum over the cores of the accumulator array's entries. -/
theorem planes_apply (A : S2x2x128.Idx → EReal) (r : Fin 2) (l : Fin 128) :
    Host.reduceAdd (F := Ideal) (φ := .f32) A (constant (F := Ideal) S_ .f32 0x00000000#32) reducesTo_S2x2x128_S2x128_d0 h_S_ (ix2 r l)
      = ∑ q : Fin 2, A (ix3 q r l) := by
  have hR : S2x2x128.Reduces [0] S2x128 := by decide
  show Ideal.hostReduceAdd reducesTo_S2x2x128_S2x128_d0 A (Ideal.ofBits .f32 0x00000000#32) (ix2 r l) = _
  rw [Ideal.hostReduceAdd_single reducesTo_S2x2x128_S2x128_d0 hR, Ideal.ofBits_zero_f32, zero_add]
  refine Finset.sum_congr rfl fun q _ => congrArg A ?_
  funext a
  match a with
  | ⟨0, _⟩ => rfl
  | ⟨1, _⟩ => rfl
  | ⟨2, _⟩ => rfl

/-- The totals vector at class `k`: the two cores' entries at row 0, lane `k`, added. -/
theorem kernSums_apply (A : S2x2x128.Idx → EReal) (k : Fin 10) :
    kernSums (F := Ideal) A (ix1 k) = ∑ q : Fin 2, A (ix3 q (0 : Fin 2) (laneOf k)) := by
  unfold kernSums
  rw [shapeCast_apply _ shapeCasts_S1x10_S10 (ix1 k) (ix2 (0 : Fin 1) k)
      (by rw [Shape.rowMajor_val_two, Shape.rowMajor_val_one]; show 0 * 10 + k.val = k.val; omega),
    extractStridedSlice_apply ![0, 0] _ slices_S2x128_S1x10_0_0 (ix2 (0 : Fin 1) k) (ix2 (0 : Fin 2) (laneOf k))
      (fun a => by
        match a with
        | ⟨0, _⟩ => rfl
        | ⟨1, _⟩ => show k.val = 0 + k.val; omega),
    planes_apply]

/-- The counts vector at class `k`: the two cores' entries at row 1, lane `k`, added. -/
theorem kernCounts_apply (A : S2x2x128.Idx → EReal) (k : Fin 10) :
    kernCounts (F := Ideal) A (ix1 k) = ∑ q : Fin 2, A (ix3 q (1 : Fin 2) (laneOf k)) := by
  unfold kernCounts
  rw [shapeCast_apply _ shapeCasts_S1x10_S10 (ix1 k) (ix2 (0 : Fin 1) k)
      (by rw [Shape.rowMajor_val_two, Shape.rowMajor_val_one]; show 0 * 10 + k.val = k.val; omega),
    extractStridedSlice_apply ![1, 0] _ slices_S2x128_S1x10_1_0 (ix2 (0 : Fin 1) k) (ix2 (1 : Fin 2) (laneOf k))
      (fun a => by
        match a with
        | ⟨0, _⟩ => rfl
        | ⟨1, _⟩ => show k.val = 0 + k.val; omega),
    planes_apply]

/-- Adding over the two cores and over the 32 points `32 q, …, 32 q + 31` of each is adding over the points
    `32 i + j` of the `2 × 32` grid. -/
theorem sum_cores_runs {M : Type} [AddCommMonoid M] (f : ℕ → M) :
    ∑ q : Fin 2, ∑ n ∈ Finset.Ico (32 * q.val) (32 * q.val + 32), f n
      = ∑ i : Fin 2, ∑ j : Fin 32, f (32 * i.val + j.val) := by
  refine Finset.sum_congr rfl fun q _ => ?_
  rw [Finset.sum_Ico_eq_sum_range, Nat.add_sub_cancel_left, Finset.sum_range]

/-- If entry (q, r, l) of an array is the sum over core `q`'s 32 grid points of the points' contributions at (r, l), and
    the contribution of point `b` at (r, l) is the sum of a term over the pixels of image `b`, then the two cores'
    entries at (r, l) add up to the sum of the term over the whole volume. -/
theorem cores_sum_eq_vol_sum (A : S2x2x128.Idx → EReal) (contribF : ℕ → S2x128.Idx → EReal)
    (hA : ∀ p : S2x2x128.Idx,
      A p = ∑ n ∈ Finset.Ico (32 * (p 0).val) (32 * (p 0).val + 32), contribF n (fun a => p a.succ))
    (r : Fin 2) (l : Fin 128) (T : Vol.Idx → EReal) (e : Fin 64 → Blk.Idx → Vol.Idx)
    (he0 : ∀ b y, ((e b y) 0).val = b.val) (he1 : ∀ b y, ((e b y) 1).val = (y 1).val)
    (he2 : ∀ b y, ((e b y) 2).val = (y 2).val)
    (hrow : ∀ b : Fin 64, contribF b.val (ix2 r l) = ∑ y : Blk.Idx, T (e b y)) :
    ∑ q : Fin 2, A (ix3 q r l) = ∑ p : Vol.Idx, T p := by
  calc ∑ q : Fin 2, A (ix3 q r l)
      = ∑ q : Fin 2, ∑ n ∈ Finset.Ico (32 * q.val) (32 * q.val + 32), contribF n (ix2 r l) := by
        refine Finset.sum_congr rfl fun q _ => ?_
        rw [hA]
        have hpos : (fun a : Fin 2 => (ix3 q r l : S2x2x128.Idx) a.succ) = ix2 r l := by
          funext a
          match a with
          | ⟨0, _⟩ => rfl
          | ⟨1, _⟩ => rfl
        rw [hpos]
    _ = ∑ i : Fin 2, ∑ j : Fin 32, contribF (32 * i.val + j.val) (ix2 r l) :=
        sum_cores_runs fun n => contribF n (ix2 r l)
    _ = ∑ i : Fin 2, ∑ j : Fin 32, ∑ y : Blk.Idx, T (e ⟨32 * i.val + j.val, by omega⟩ y) := by
        refine Finset.sum_congr rfl fun i _ => Finset.sum_congr rfl fun j _ => ?_
        exact hrow ⟨32 * i.val + j.val, by omega⟩
    _ = ∑ b : Fin 64, ∑ y : Blk.Idx, T (e b y) :=
        (sum_fin64_eq_sum_2_32 fun b => ∑ y : Blk.Idx, T (e b y)).symm
    _ = ∑ p : Vol.Idx, T p := (sum_vol_eq_sum_blocks T e he0 he1 he2).symm

/-- The tail's totals vector of the accumulator array is the vector of class totals. -/
theorem kernSums_eq (c : Dev nD) :
    kernSums (F := Ideal) (accArr m c)
      = fun i => classSum (m ((c.tc : Thread nD τ).loc main_arg0)) (m ((c.tc : Thread nD τ).loc main_arg1))
          (m ((c.tc : Thread nD τ).loc main_arg2)) (i 0) := by
  funext i
  obtain ⟨k, rfl⟩ : ∃ k : Fin 10, i = ix1 k := ⟨i 0, eq_ix1 i⟩
  rw [kernSums_apply]
  exact cores_sum_eq_vol_sum (accArr m c) (contrib m c) (fun _ => rfl) 0 (laneOf k)
    (sumTerm (m ((c.tc : Thread nD τ).loc main_arg0)) (m ((c.tc : Thread nD τ).loc main_arg1))
      (m ((c.tc : Thread nD τ).loc main_arg2)) k)
    pixel pixel_0 pixel_1 pixel_2
    (fun b => contrib_row0 m c ⟨b.val, lt_of_lt_of_eq b.isLt N_0.symm⟩ k)

/-- The tail's counts vector of the accumulator array is the vector of class counts. -/
theorem kernCounts_eq (c : Dev nD) :
    kernCounts (F := Ideal) (accArr m c)
      = fun i => classCount (m ((c.tc : Thread nD τ).loc main_arg1)) (m ((c.tc : Thread nD τ).loc main_arg2)) (i 0) := by
  funext i
  obtain ⟨k, rfl⟩ : ∃ k : Fin 10, i = ix1 k := ⟨i 0, eq_ix1 i⟩
  rw [kernCounts_apply]
  exact cores_sum_eq_vol_sum (accArr m c) (contrib m c) (fun _ => rfl) 1 (laneOf k)
    (countTerm (m ((c.tc : Thread nD τ).loc main_arg1)) (m ((c.tc : Thread nD τ).loc main_arg2)) k)
    pixel pixel_0 pixel_1 pixel_2
    (fun b => contrib_row1 m c ⟨b.val, lt_of_lt_of_eq b.isLt N_0.symm⟩ k)

end Cert.KernelIdeal.KernelValue

end
-- ==== Proof.ReferenceRun.lean ====
/-
  The reference as a straight line of host operations, and what its result buffers hold after it runs.

  The reference first marks every pixel with a bin: the truncation of its target to an integer where the mask word is
  one, and the spare bin ten elsewhere.  It then adds, bin by bin, the squared error `(o - t) * (o - t)` of the pixels
  (the class totals) and, separately, a one per pixel (the class counts), each into eleven bins from zero, and keeps
  the first ten bins of each.  From the totals and counts it forms the per-class loss and the weighted loss exactly as
  `ClassTotals.lossEach` and `ClassTotals.lossOf` do.  Here the two ten-entry vectors are named as terms of the three
  arguments, at any float instance, and the run is read back: every weakly fair execution terminates with the three
  results at those terms and the arguments unchanged.
-/
import proofs.«156286_g80736795230576_feedfinal_77_2_alg».proof.Proof.Gen.ReferenceIdeal
import proofs.«156286_g80736795230576_feedfinal_77_2_alg».proof.Proof.ClassTotals
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## The bins, the totals and the counts as terms of the arguments -/

/-- The bin of every pixel, as the one-column index table the scatter reads: the target truncated to an integer where
    the mask word is one, the spare bin ten elsewhere, flattened in row-major order. -/
def refIds (t : FVec F S64x512x512 .f32) (mk : IVec S64x512x512 32) : IVec S16777216x1 32 :=
  broadcastInDim S16777216x1 ![0] bcast_S16777216_S16777216x1_0
    (shapeCast S16777216
      (select (cmpi .eq mk (broadcastInDim S64x512x512 ![] bcast_S_S64x512x512 (constantI S_ 32 1#32)))
        (fptosi (F := F) 32 t)
        (broadcastInDim S64x512x512 ![] bcast_S_S64x512x512 (id (constantI S_ 32 10#32))))
      shapeCasts_S64x512x512_S16777216)

/-- The class totals: the squared errors added bin by bin into eleven zeros, the first ten bins kept. -/
def refSums (o t : FVec F S64x512x512 .f32) (mk : IVec S64x512x512 32) : FVec F S10 .f32 :=
  extractStridedSlice S10 ![0]
    (Host.scatterAdd (F := F) scatter_S11_S16777216x1_S16777216_n_0_0_1
      (broadcastInDim S11 ![] bcast_S_S11 (constant (F := F) S_ .f32 0x00000000#32))
      (refIds (F := F) t mk)
      (shapeCast S16777216 (mulf (F := F) (subf (F := F) o t) (subf (F := F) o t)) shapeCasts_S64x512x512_S16777216))
    slices_S11_S10_0

/-- The class counts: a one per pixel added bin by bin into eleven zeros, the first ten bins kept. -/
def refCounts (t : FVec F S64x512x512 .f32) (mk : IVec S64x512x512 32) : FVec F S10 .f32 :=
  extractStridedSlice S10 ![0]
    (Host.scatterAdd (F := F) scatter_S11_S16777216x1_S16777216_n_0_0_1
      (broadcastInDim S11 ![] bcast_S_S11 (constant (F := F) S_ .f32 0x00000000#32))
      (refIds (F := F) t mk)
      (shapeCast S16777216 (broadcastInDim S64x512x512 ![] bcast_S_S64x512x512 (constant (F := F) S_ .f32 0x3F800000#32))
        shapeCasts_S64x512x512_S16777216))
    slices_S11_S10_0

/-! ## The program as a list of operations -/

/-- The forty host operations of the reference in program order; the two selects' callee bodies (a conversion of the
    scalar to its own type, its broadcast, the select) stand where they are called, over the call's own buffers. -/
abbrev ops : List (HloOp τ sig (Elt F)) :=
  [ nullary main_cst (constant S10 .f32 0x3DCCCCCD#32),
    unary main_arg1 main_v0 (fptosi 32 : (⟨S64x512x512, .f32⟩ : BufTy).Contents (Elt F) → (⟨S64x512x512, .i32⟩ : BufTy).Contents (Elt F)),
    nullary main_c (constantI S_ 32 1#32),
    unary main_c main_v1 (broadcastInDim S64x512x512 ![] bcast_S_S64x512x512 : (⟨S_, .i32⟩ : BufTy).Contents (Elt F) → (⟨S64x512x512, .i32⟩ : BufTy).Contents (Elt F)),
    binary main_arg2 main_v1 main_v2 (cmpi .eq : (⟨S64x512x512, .i32⟩ : BufTy).Contents (Elt F) → (⟨S64x512x512, .i32⟩ : BufTy).Contents (Elt F) → (⟨S64x512x512, .i1⟩ : BufTy).Contents (Elt F)),
    nullary main_c_0 (constantI S_ 32 10#32),
    TRef.unary (TRef.of (T := ⟨S_, .i32⟩) main_c_0) (TRef.of (T := ⟨S_, .i32⟩) main_call0_v0) id,
    TRef.unary (TRef.of (T := ⟨S_, .i32⟩) main_call0_v0) (TRef.of (T := ⟨S64x512x512, .i32⟩) main_call0_v1) (broadcastInDim S64x512x512 ![] bcast_S_S64x512x512),
    TRef.ternary (TRef.of (T := ⟨S64x512x512, .i1⟩) main_v2) (TRef.of (T := ⟨S64x512x512, .i32⟩) main_v0) (TRef.of (T := ⟨S64x512x512, .i32⟩) main_call0_v1) (TRef.of (T := ⟨S64x512x512, .i32⟩) main_v3) select,
    reshape main_v3 main_v4 rfl shapeCasts_S64x512x512_S16777216,
    binary main_arg0 main_arg1 main_v5 (subf : (⟨S64x512x512, .f32⟩ : BufTy).Contents (Elt F) → (⟨S64x512x512, .f32⟩ : BufTy).Contents (Elt F) → (⟨S64x512x512, .f32⟩ : BufTy).Contents (Elt F)),
    binary main_v5 main_v5 main_v6 (mulf : (⟨S64x512x512, .f32⟩ : BufTy).Contents (Elt F) → (⟨S64x512x512, .f32⟩ : BufTy).Contents (Elt F) → (⟨S64x512x512, .f32⟩ : BufTy).Contents (Elt F)),
    reshape main_v6 main_v7 rfl shapeCasts_S64x512x512_S16777216,
    nullary main_cst_1 (constant S_ .f32 0x00000000#32),
    unary main_cst_1 main_v8 (broadcastInDim S11 ![] bcast_S_S11 : (⟨S_, .f32⟩ : BufTy).Contents (Elt F) → (⟨S11, .f32⟩ : BufTy).Contents (Elt F)),
    unary main_v4 main_v9 (broadcastInDim S16777216x1 ![0] bcast_S16777216_S16777216x1_0 : (⟨S16777216, .i32⟩ : BufTy).Contents (Elt F) → (⟨S16777216x1, .i32⟩ : BufTy).Contents (Elt F)),
    ternary main_v8 main_v9 main_v7 main_v10 ((fun x i u => Host.scatterAdd scatter_S11_S16777216x1_S16777216_n_0_0_1 x i u) : (⟨S11, .f32⟩ : BufTy).Contents (Elt F) → (⟨S16777216x1, .i32⟩ : BufTy).Contents (Elt F) → (⟨S16777216, .f32⟩ : BufTy).Contents (Elt F) → (⟨S11, .f32⟩ : BufTy).Contents (Elt F)),
    unary main_v10 main_v11 ((extractStridedSlice S10 ![0] · slices_S11_S10_0) : (⟨S11, .f32⟩ : BufTy).Contents (Elt F) → (⟨S10, .f32⟩ : BufTy).Contents (Elt F)),
    nullary main_cst_2 (constant S_ .f32 0x3F800000#32),
    unary main_cst_2 main_v12 (broadcastInDim S64x512x512 ![] bcast_S_S64x512x512 : (⟨S_, .f32⟩ : BufTy).Contents (Elt F) → (⟨S64x512x512, .f32⟩ : BufTy).Contents (Elt F)),
    reshape main_v12 main_v13 rfl shapeCasts_S64x512x512_S16777216,
    nullary main_cst_3 (constant S_ .f32 0x00000000#32),
    unary main_cst_3 main_v14 (broadcastInDim S11 ![] bcast_S_S11 : (⟨S_, .f32⟩ : BufTy).Contents (Elt F) → (⟨S11, .f32⟩ : BufTy).Contents (Elt F)),
    unary main_v4 main_v15 (broadcastInDim S16777216x1 ![0] bcast_S16777216_S16777216x1_0 : (⟨S16777216, .i32⟩ : BufTy).Contents (Elt F) → (⟨S16777216x1, .i32⟩ : BufTy).Contents (Elt F)),
    ternary main_v14 main_v15 main_v13 main_v16 ((fun x i u => Host.scatterAdd scatter_S11_S16777216x1_S16777216_n_0_0_1 x i u) : (⟨S11, .f32⟩ : BufTy).Contents (Elt F) → (⟨S16777216x1, .i32⟩ : BufTy).Contents (Elt F) → (⟨S16777216, .f32⟩ : BufTy).Contents (Elt F) → (⟨S11, .f32⟩ : BufTy).Contents (Elt F)),
    unary main_v16 main_v17 ((extractStridedSlice S10 ![0] · slices_S11_S10_0) : (⟨S11, .f32⟩ : BufTy).Contents (Elt F) → (⟨S10, .f32⟩ : BufTy).Contents (Elt F)),
    nullary main_cst_4 (constant S_ .f32 0x00000000#32),
    unary main_cst_4 main_v18 (broadcastInDim S10 ![] bcast_S_S10 : (⟨S_, .f32⟩ : BufTy).Contents (Elt F) → (⟨S10, .f32⟩ : BufTy).Contents (Elt F)),
    binary main_v17 main_v18 main_v19 (cmpf .ogt : (⟨S10, .f32⟩ : BufTy).Contents (Elt F) → (⟨S10, .f32⟩ : BufTy).Contents (Elt F) → (⟨S10, .i1⟩ : BufTy).Contents (Elt F)),
    nullary main_cst_5 (constant S_ .f32 0x3F800000#32),
    unary main_cst_5 main_v20 (broadcastInDim S10 ![] bcast_S_S10 : (⟨S_, .f32⟩ : BufTy).Contents (Elt F) → (⟨S10, .f32⟩ : BufTy).Contents (Elt F)),
    binary main_v17 main_v20 main_v21 (maximumf : (⟨S10, .f32⟩ : BufTy).Contents (Elt F) → (⟨S10, .f32⟩ : BufTy).Contents (Elt F) → (⟨S10, .f32⟩ : BufTy).Contents (Elt F)),
    binary main_v11 main_v21 main_v22 (Host.divf : (⟨S10, .f32⟩ : BufTy).Contents (Elt F) → (⟨S10, .f32⟩ : BufTy).Contents (Elt F) → (⟨S10, .f32⟩ : BufTy).Contents (Elt F)),
    nullary main_cst_6 (constant S_ .f32 0x00000000#32),
    TRef.unary (TRef.of (T := ⟨S_, .f32⟩) main_cst_6) (TRef.of (T := ⟨S_, .f32⟩) main_call1_v0) id,
    TRef.unary (TRef.of (T := ⟨S_, .f32⟩) main_call1_v0) (TRef.of (T := ⟨S10, .f32⟩) main_call1_v1) (broadcastInDim S10 ![] bcast_S_S10),
    TRef.ternary (TRef.of (T := ⟨S10, .i1⟩) main_v19) (TRef.of (T := ⟨S10, .f32⟩) main_v22) (TRef.of (T := ⟨S10, .f32⟩) main_call1_v1) (TRef.of (T := ⟨S10, .f32⟩) main_v23) select,
    binary main_cst main_v23 main_v24 (mulf : (⟨S10, .f32⟩ : BufTy).Contents (Elt F) → (⟨S10, .f32⟩ : BufTy).Contents (Elt F) → (⟨S10, .f32⟩ : BufTy).Contents (Elt F)),
    nullary main_cst_7 (constant S_ .f32 0x00000000#32),
    binary main_v24 main_cst_7 main_v25 ((fun x v => Host.reduceAdd x v reducesTo_S10_S_d0 h_S_) : (⟨S10, .f32⟩ : BufTy).Contents (Elt F) → (⟨S_, .f32⟩ : BufTy).Contents (Elt F) → (⟨S_, .f32⟩ : BufTy).Contents (Elt F)) ]

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., unary_bufs_sub .., ternary_bufs_sub .., reshape_bufs_sub .., binary_bufs_sub .., binary_bufs_sub .., reshape_bufs_sub .., nullary_bufs_sub .., unary_bufs_sub .., unary_bufs_sub .., ternary_bufs_sub .., unary_bufs_sub .., nullary_bufs_sub .., unary_bufs_sub .., reshape_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., binary_bufs_sub .., nullary_bufs_sub .., unary_bufs_sub .., unary_bufs_sub .., ternary_bufs_sub .., binary_bufs_sub .., nullary_bufs_sub .., binary_bufs_sub ..⟩

set_option maxRecDepth 8192 in
set_option maxHeartbeats 2000000 in
/-- On every device, at any float instance, from any memory with zero counters: every weakly fair execution of the
    reference terminates with the loss, the per-class loss and the class counts at the terms above of the arguments'
    launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v25)
          = ClassTotals.lossOf (F := F) reducesTo_S10_S_d0 h_S_ (constant (F := F) S10 .f32 0x3DCCCCCD#32)
              (ClassTotals.lossEach (F := F) bcast_S_S10
                (refSums (F := F) (m ((c.tc : Thread nD τ).loc main_arg0)) (m ((c.tc : Thread nD τ).loc main_arg1)) (m ((c.tc : Thread nD τ).loc main_arg2)))
                (refCounts (F := F) (m ((c.tc : Thread nD τ).loc main_arg1)) (m ((c.tc : Thread nD τ).loc main_arg2))))
      ∧ r.2.mem ((c.tc : Thread nD τ).loc main_v23)
          = ClassTotals.lossEach (F := F) bcast_S_S10
              (refSums (F := F) (m ((c.tc : Thread nD τ).loc main_arg0)) (m ((c.tc : Thread nD τ).loc main_arg1)) (m ((c.tc : Thread nD τ).loc main_arg2)))
              (refCounts (F := F) (m ((c.tc : Thread nD τ).loc main_arg1)) (m ((c.tc : Thread nD τ).loc main_arg2)))
      ∧ r.2.mem ((c.tc : Thread nD τ).loc main_v17)
          = refCounts (F := F) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v25).trans (by after_results_simp <;> rfl),
      (h c main_v23).trans (by after_results_simp <;> rfl),
      (h c main_v17).trans (by after_results_simp <;> rfl),
      (h c main_arg0).trans (by after_results_simp <;> rfl),
      (h c main_arg1).trans (by after_results_simp <;> rfl),
      (h c main_arg2).trans (by after_results_simp <;> rfl)⟩)
    (run_seq scopedRefs_eq scopedSems_eq defs main (fun _ => ops) main_eq (fun _ => ops_sub) m ρ)

end Cert.ReferenceIdeal.RefValue

end
-- ==== Proof.ReferenceTotals.lean ====
/-
  The reference's two accumulations are the class totals and the class counts.

  The reference gives every pixel a bin — the truncation of its target to an integer where the mask word is one, the
  spare bin ten elsewhere —, flattens the volume in row-major order, adds one update per flat position into eleven bins
  that start at zero, and keeps the first ten.  Read at one of those ten, a bin holds the sum of the updates that land
  on it.  An update lands on the bin whose number is the signed value of its index word (and nowhere when that value is
  outside the eleven bins), the index word at a flat position is the bin of the pixel there, and the flattening is a
  bijection between flat positions and pixels, so the bin holds a sum over pixels.  When every target is one of the ten
  class values, a pixel's bin is class `k`'s number exactly when the mask admits the pixel and its target is class
  `k`'s value: the truncation of a class value is its number, distinct classes have distinct values, and ten is no
  class's number.  Only commutativity and associativity of addition on the extended reals are used.
-/
import proofs.«156286_g80736795230576_feedfinal_77_2_alg».proof.Proof.ReferenceRun
import proofs.«156286_g80736795230576_feedfinal_77_2_alg».proof.Proof.LibExtendedReals
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic

/-! ## Where an update lands -/

/-- The scatter's dimension numbers. -/
local notation "D" => scatter_S11_S16777216x1_S16777216_n_0_0_1

/-- The row of the index table that update `j` reads: `(j, 0)`. -/
def row (j : S16777216.Idx) : S16777216x1.Idx := fun b => match b with
  | ⟨0, _⟩ => ⟨(j 0).val, (j 0).isLt⟩
  | ⟨1, _⟩ => ⟨0, Nat.one_pos⟩

theorem siIdx_eq (j : S16777216.Idx) (c : Fin (D).scatterDimsToOperandDims.length) : (D).siIdx j c = row j := by
  funext b
  match b with
  | ⟨0, _⟩ => rfl
  | ⟨1, _⟩ => apply Fin.ext; show c.val = 0; have := c.isLt; change c.val < 1 at this; omega

theorem start_eq (idx : IVec S16777216x1 32) (j : S16777216.Idx) (a : Fin S11.rank) :
    (D).start j idx a = (idx (row j)).toInt := by
  unfold ScatterDims.start
  have ha : a ∈ (D).scatterDimsToOperandDims := by
    show a ∈ ([0] : List (Fin 1)); exact List.mem_singleton.2 (Subsingleton.elim _ _)
  rw [dif_pos ha, siIdx_eq]

theorem window_eq (j : S16777216.Idx) (a : Fin S11.rank) : (D).window j a = 0 := by
  unfold ScatterDims.window
  have ha : a ∉ (D).sKept := by
    have : a = 0 := Subsingleton.elim _ _
    subst this; decide
  rw [dif_neg ha]

/-- Update `j` lands on bin `b` exactly when the signed value of its index word is `b`'s number; an index word
    outside `[0, 11)` lands nowhere. -/
theorem resultIdx?_eq_some_iff (idx : IVec S16777216x1 32) (j : S16777216.Idx) (b : S11.Idx) :
    (D).resultIdx? j idx = some b ↔ (idx (row j)).toInt = ((b 0).val : Int) := by
  have hb : (b 0).val < 11 := (b 0).isLt
  unfold ScatterDims.resultIdx?
  constructor
  · intro h
    split at h
    · rename_i H
      have h0 := congrArg Fin.val (congrFun (Option.some.inj h) 0)
      have h1 : ((D).start j idx 0 + ((D).window j 0 : Int)).toNat = (b 0).val := h0
      have H0 := (H 0).1
      rw [start_eq, window_eq] at h1 H0
      omega
    · cases h
  · intro h
    have H : ∀ a, 0 ≤ (D).start j idx a + ((D).window j a : Int)
        ∧ (D).start j idx a + ((D).window j a : Int) < (S11.size a : Int) := by
      intro a
      have ha : a = 0 := Subsingleton.elim _ _
      subst ha
      rw [start_eq, window_eq, h]
      show (0:Int) ≤ ((b 0).val : Int) + ((0:Nat) : Int) ∧ ((b 0).val : Int) + ((0:Nat) : Int) < ((11 : Nat) : Int)
      omega
    rw [dif_pos H]
    congr 1
    funext a
    have ha : a = 0 := Subsingleton.elim _ _
    subst ha
    apply Fin.ext
    show ((D).start j idx 0 + ((D).window j 0 : Int)).toNat = (b 0).val
    rw [start_eq, window_eq, h]
    omega

/-! ## The index table at a row, and a pixel's bin -/

open Cert.ClassTotals

/-- The flattening of the volume in row-major order: flat position to pixel. -/
abbrev flat : S16777216.Idx ≃ Vol.Idx := Shape.reshapeEquiv shapeCasts_S64x512x512_S16777216

/-- A pixel's bin: its target truncated to an integer where the mask word is one, ten elsewhere. -/
def bin (t : Vol.Idx → EReal) (mk : Vol.Idx → BitVec 32) (p : Vol.Idx) : BitVec 32 :=
  if mk p = 1#32 then Ideal.fptosi 32 (t p) else 10#32

theorem select_cmpi_eq {α : Type} (x y : BitVec 32) (a b : α) :
    Scalar.select (IntOp.cmpi .eq x y) a b = if x = y then a else b := by
  show (if BitVec.ofBool (x == y) = 1 then a else b) = _
  by_cases h : x = y
  · have hb : (x == y) = true := beq_iff_eq.2 h
    rw [hb, if_pos h, if_pos (by decide)]
  · have hb : (x == y) = false := beq_eq_false_iff_ne.2 h
    rw [hb, if_neg h, if_neg (by decide)]

/-- The index table at row `j` holds the bin of the pixel at flat position `j`. -/
theorem refIds_row (t : Vol.Idx → EReal) (mk : Vol.Idx → BitVec 32) (j : S16777216.Idx) :
    refIds (F := Ideal) t mk (row j) = bin t mk (flat j) := by
  unfold refIds
  rw [broadcastInDim_apply _ bcast_S16777216_S16777216x1_0 _ (row j) j (fun a => match a with
    | ⟨0, _⟩ => by show (j 0).val = if (16777216 : Nat) = 1 then 0 else (j 0).val; rw [if_neg (by decide)])]
  show Scalar.select (IntOp.cmpi .eq (mk (flat j)) 1#32) (Ideal.fptosi 32 (t (flat j))) 10#32 = _
  rw [select_cmpi_eq]
  rfl

theorem toInt_ofNat_lt_ten : ∀ k : Fin 10, (BitVec.ofNat 32 k.val).toInt = (k.val : Int) := by decide

/-- Under the class-id hypothesis a pixel's bin is class `c`'s number exactly when the mask admits the pixel and its
    target is class `c`'s value: the truncation of a class value is its number, distinct classes have distinct
    values, and the spare bin ten is no class's number. -/
theorem bin_toInt_eq_iff {t : Vol.Idx → EReal} {mk : Vol.Idx → BitVec 32}
    (hfp : ∀ k : Fin 10, Ideal.fptosi 32 (classVal k) = BitVec.ofNat 32 k.val) (hinj : Function.Injective classVal)
    (hcls : IsClassId t) (p : Vol.Idx) (c : Fin 10) :
    (bin t mk p).toInt = (c.val : Int) ↔ mk p = 1#32 ∧ t p = classVal c := by
  unfold bin
  have hc10 : c.val < 10 := c.isLt
  by_cases hm : mk p = 1#32
  · rw [if_pos hm]
    obtain ⟨k, hk⟩ := hcls p
    rw [hk, hfp k, toInt_ofNat_lt_ten k]
    constructor
    · intro h
      have hkc : k = c := Fin.ext (by omega)
      exact ⟨hm, by rw [hkc]⟩
    · rintro ⟨_, h⟩
      rw [hinj h]
  · rw [if_neg hm]
    constructor
    · intro h
      have h10 : (10#32 : BitVec 32).toInt = 10 := by decide
      omega
    · rintro ⟨h, _⟩
      exact absurd h hm

/-! ## The accumulated bins read at one of the first ten -/

/-- The accumulating scatter at the exact values, read at one element: the start value there plus the sum, over all
    the updates, of the update where it lands on that element and of zero where it does not. -/
theorem scatterAdd_apply {s si u : Shape} {w : Nat} (d : ScatterDims s si u) (x : FVec Ideal s .f32) (idx : IVec si w)
    (upd : FVec Ideal u .f32) (b : s.Idx) :
    Host.scatterAdd (F := Ideal) (φ := .f32) d x idx upd b
      = x b + ∑ j : u.Idx, if d.resultIdx? j idx = some b then upd j else 0 := by
  show Ideal.hostScatterAdd d x idx upd b = _
  unfold Ideal.hostScatterAdd
  rw [Finset.sum_filter]

/-- Entry `i` of the kept ten is bin `i` of the eleven. -/
def binIdx (i : S10.Idx) : S11.Idx := fun a => match a with
  | ⟨0, _⟩ => ⟨(i 0).val, by have h0 : (i 0).val < 10 := (i 0).isLt; show (i 0).val < 11; omega⟩

/-- Every bin starts at zero. -/
theorem zeros_apply (b : S11.Idx) :
    broadcastInDim S11 ![] bcast_S_S11 (constant (F := Ideal) S_ .f32 0x00000000#32) b = 0 :=
  Ideal.ofBits_zero_f32

open Classical in
/-- Whatever is added per pixel (`f`, flattened in row-major order), the bins accumulated from zero and read at one of
    the first ten hold the sum of `f` over the pixels the mask admits whose target is that class's value: the sum over
    the updates landing on the bin is a sum of conditionals, the flattening carries the sum over flat positions to the
    sum over pixels, and a pixel's bin is the class's number exactly under that condition. -/
theorem scatter_slice_apply {t : Vol.Idx → EReal} {mk : Vol.Idx → BitVec 32}
    (hfp : ∀ k : Fin 10, Ideal.fptosi 32 (classVal k) = BitVec.ofNat 32 k.val) (hinj : Function.Injective classVal)
    (hcls : IsClassId t) (f : Vol.Idx → EReal) (i : S10.Idx) :
    extractStridedSlice S10 ![0]
        (Host.scatterAdd (F := Ideal) (φ := .f32) (D)
          (broadcastInDim S11 ![] bcast_S_S11 (constant (F := Ideal) S_ .f32 0x00000000#32))
          (refIds (F := Ideal) t mk)
          (shapeCast S16777216 f shapeCasts_S64x512x512_S16777216))
        slices_S11_S10_0 i
      = ∑ p : Vol.Idx, if mk p = 1#32 ∧ t p = classVal (i 0) then f p else 0 := by
  rw [extractStridedSlice_apply ![0] _ slices_S11_S10_0 i (binIdx i) (fun a => match a with
    | ⟨0, _⟩ => by show (i 0).val = 0 + (i 0).val; omega)]
  rw [scatterAdd_apply, zeros_apply, zero_add]
  refine Fintype.sum_equiv flat _ _ fun j => ?_
  beta_reduce
  have key : (D).resultIdx? j (refIds (F := Ideal) t mk) = some (binIdx i)
      ↔ mk (flat j) = 1#32 ∧ t (flat j) = classVal (i 0) :=
    (resultIdx?_eq_some_iff _ j (binIdx i)).trans
      (by rw [refIds_row]; exact bin_toInt_eq_iff hfp hinj hcls (flat j) (i 0))
  by_cases h : mk (flat j) = 1#32 ∧ t (flat j) = classVal (i 0)
  · rw [if_pos (key.2 h), if_pos h]
    rfl
  · rw [if_neg (fun h' => h (key.1 h')), if_neg h]

/-! ## The reference's totals and counts are the class totals and counts -/

/-- The reference's class totals are the class totals. -/
theorem refSums_eq (o t : Vol.Idx → EReal) (mk : Vol.Idx → BitVec 32) (hcls : IsClassId t)
    (hfp : ∀ k : Fin 10, Ideal.fptosi 32 (classVal k) = BitVec.ofNat 32 k.val) (hinj : Function.Injective classVal) :
    refSums (F := Ideal) o t mk = fun i => classSum o t mk (i 0) := by
  funext i
  rw [refSums, scatter_slice_apply hfp hinj hcls]
  unfold classSum
  refine Finset.sum_congr rfl fun p _ => ?_
  by_cases h : mk p = 1#32 ∧ t p = classVal (i 0)
  · rw [if_pos h, if_pos h]; rfl
  · rw [if_neg h, if_neg h]

/-- The reference's class counts are the class counts. -/
theorem refCounts_eq (t : Vol.Idx → EReal) (mk : Vol.Idx → BitVec 32) (hcls : IsClassId t)
    (hfp : ∀ k : Fin 10, Ideal.fptosi 32 (classVal k) = BitVec.ofNat 32 k.val) (hinj : Function.Injective classVal) :
    refCounts (F := Ideal) t mk = fun i => classCount t mk (i 0) := by
  funext i
  rw [refCounts, scatter_slice_apply hfp hinj hcls]
  unfold classCount
  refine Finset.sum_congr rfl fun p _ => ?_
  by_cases h : mk p = 1#32 ∧ t p = classVal (i 0)
  · rw [if_pos h, if_pos h]; exact Cert.ExtendedReals.ofBits_one_f32
  · rw [if_neg h, if_neg h]

end Cert.ReferenceIdeal.RefValue
end
-- ==== Proof.lean ====
/-
  A per-class masked mean of squared error: the kernel and its reference compute one function.

  Inputs: outputs `o` and targets `t` (floats) and a mask `mk` (words) over a `64 × 512 × 512` volume.  For each of ten
  classes `k` let `Sₖ` be the sum of `(o p - t p)²` over the pixels `p` with `mk p = 1` and `t p = k`, and `Nₖ` the number
  of those pixels.  The results are the per-class loss `Sₖ / max(Nₖ, 1)` where `Nₖ > 0` (zero for an empty class), the
  weighted loss `∑ₖ 0.1 · lossₖ`, and the counts `Nₖ`.

  The kernel walks the volume image by image on a `2 × 32` grid, tests each target for equality with the float `k`,
  and adds each image's class totals and counts into a lane-packed accumulator, one block per core; the host adds the
  two cores' blocks and finishes.  The reference truncates each target to an integer class id, routes the pixels the
  mask rejects to a spare bin, and accumulates totals and counts with two scatter-adds into eleven bins, keeping ten.

  At the exact instance both `Sₖ` and `Nₖ` are finite sums in the commutative monoid of the extended reals, so the
  kernel's grouping (core, point of the run, pixel of the image) and the reference's (flat pixel, selected by bin) are
  the same sum: only commutativity and associativity of addition are used, and no finiteness.  The two selections agree
  when every target is one of the class values `0, 1, …, 9`: then truncation returns the class itself, the spare bin
  is never a class, and distinct classes have distinct values.  That is the precondition's added conjunct.  From equal
  totals and counts on, the two programs apply the same operations.
-/
import proofs.«156286_g80736795230576_feedfinal_77_2_alg».proof.Defs
import proofs.«156286_g80736795230576_feedfinal_77_2_alg».proof.Proof.Gen.Kernel
import proofs.«156286_g80736795230576_feedfinal_77_2_alg».proof.Proof.Gen.Kernel.Frame
import proofs.«156286_g80736795230576_feedfinal_77_2_alg».proof.Proof.Gen.KernelIdeal
import proofs.«156286_g80736795230576_feedfinal_77_2_alg».proof.Proof.Gen.KernelIdeal.Frame
import proofs.«156286_g80736795230576_feedfinal_77_2_alg».proof.Proof.Gen.ReferenceIdeal
import proofs.«156286_g80736795230576_feedfinal_77_2_alg».proof.Proof.Gen.Pre_finite_inputs
import proofs.«156286_g80736795230576_feedfinal_77_2_alg».proof.Proof.ClassTotals
import proofs.«156286_g80736795230576_feedfinal_77_2_alg».proof.Proof.ClassValues
import proofs.«156286_g80736795230576_feedfinal_77_2_alg».proof.Proof.TargetsAreClassIds
import proofs.«156286_g80736795230576_feedfinal_77_2_alg».proof.Proof.AccumulatorArray
import proofs.«156286_g80736795230576_feedfinal_77_2_alg».proof.Proof.KernelTail
import proofs.«156286_g80736795230576_feedfinal_77_2_alg».proof.Proof.KernelTotals
import proofs.«156286_g80736795230576_feedfinal_77_2_alg».proof.Proof.ReferenceRun
import proofs.«156286_g80736795230576_feedfinal_77_2_alg».proof.Proof.ReferenceTotals
import Idealize.ShloMosaic.Adequacy
import Idealize.ShloMosaic.Init

set_option maxRecDepth 16384

noncomputable section

namespace Cert.Proof

open Idealize.ShloMosaic Idealize.ShloMosaic.TcCoe Idealize.SL.Sem

/-- The weight vector spelt as a broadcast scalar is the weight vector spelt as a splat. -/
theorem weights_eq (hb : ClassTotals.Scal.BroadcastsInDim ClassTotals.Cls (![] : Fin 0 → Fin ClassTotals.Cls.rank)) (w : BitVec 32) :
    broadcastInDim ClassTotals.Cls ![] hb (constant (F := Ideal) ClassTotals.Scal .f32 w) = constant (F := Ideal) ClassTotals.Cls .f32 w := by
  funext i
  exact broadcastInDim_apply _ hb _ i (fun a => a.elim0) (fun a => a.elim0)

theorem frame_p : Cert.frame_Kernel (hKernel := Cert.Kernel.Gen.facts) (hPre_finite_inputs := Cert.Pre_finite_inputs.Gen.facts) :=
  fun m ρ _ => Cert.Kernel.Gen.frame m ρ

theorem frame_pi : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2)
    (Cert.ReferenceIdeal.RefValue.run (F := Ideal) m ρ)

theorem preserves : Cert.preserves_Kernel_KernelIdeal := trivial

/-- The ideal kernel and the ideal reference, from memories agreeing on the arguments, end with equal results: the
    kernel's class totals and counts (read off its accumulator array through the host's sum over the two cores) and the
    reference's (read off its two accumulating scatters) are both the class totals and counts of the arguments, since
    every target is a class value; from there on the two programs apply the same operations to equal vectors. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.KernelValue.kernLoss (Cert.KernelIdeal.KernelValue.accOf m c),
    fun c => Cert.KernelIdeal.KernelValue.kernEach (Cert.KernelIdeal.KernelValue.accOf m c),
    fun c => Cert.KernelIdeal.KernelValue.kernCounts (Cert.KernelIdeal.KernelValue.accOf m c),
    Cert.KernelIdeal.KernelValue.run m ρ, ?_⟩
  refine (θ_run Cert.ReferenceIdeal.defs _ _).mono (fun r h c => ?_) (Cert.ReferenceIdeal.RefValue.run (F := Ideal) m' ρ')
  obtain ⟨h25, h23, h17, ha0, ha1, ha2⟩ := h c
  obtain ⟨g0, g1, g2⟩ := hagree c
  have hcls : ClassTotals.IsClassId (m ((c.tc : Thread Cert.KernelIdeal.nD Cert.KernelIdeal.τ).loc Cert.KernelIdeal.main_arg1)) :=
    ClassTotals.isClassId_of_pre _ _ _ (hpre c)
  have hacc : Cert.KernelIdeal.KernelValue.accOf m c = Cert.KernelIdeal.Accumulator.accArr m c :=
    Cert.KernelIdeal.Accumulator.final m c
  -- the class totals: the reference's at the agreeing arguments are the kernel's
  have hS : Cert.ReferenceIdeal.RefValue.refSums (F := Ideal)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
      = Cert.KernelIdeal.KernelValue.kernSums (F := Ideal) (Cert.KernelIdeal.KernelValue.accOf m c) := by
    rw [g0, g1, g2, hacc, Cert.KernelIdeal.KernelValue.kernSums_eq m c]
    exact Cert.ReferenceIdeal.RefValue.refSums_eq _ _ _ hcls ClassTotals.fptosi_classVal ClassTotals.classVal_injective
  have hC : Cert.ReferenceIdeal.RefValue.refCounts (F := Ideal)
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
      = Cert.KernelIdeal.KernelValue.kernCounts (F := Ideal) (Cert.KernelIdeal.KernelValue.accOf m c) := by
    rw [g1, g2, hacc, Cert.KernelIdeal.KernelValue.kernCounts_eq m c]
    exact Cert.ReferenceIdeal.RefValue.refCounts_eq _ _ hcls ClassTotals.fptosi_classVal ClassTotals.classVal_injective
  refine ⟨h25.trans ?_, h23.trans ?_, h17.trans hC, ha0, ha1, ha2⟩
  · show _ = Cert.KernelIdeal.KernelValue.kernLoss (Cert.KernelIdeal.KernelValue.accOf m c)
    rw [Cert.KernelIdeal.KernelValue.kernLoss_def, weights_eq, hS, hC]
  · show _ = Cert.KernelIdeal.KernelValue.kernEach (Cert.KernelIdeal.KernelValue.accOf m c)
    rw [Cert.KernelIdeal.KernelValue.kernEach_def, hS, hC]

/-- The certificate: the program facts, the three frames, the (empty) ledger and the algebraic claim. -/
theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
